-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000 : Shape := ⟨1, ![800000]⟩
abbrev S4x256x256 : Shape := ⟨3, ![4, 256, 256]⟩
abbrev S256x256 : Shape := ⟨2, ![256, 256]⟩
abbrev S256 : Shape := ⟨1, ![256]⟩
abbrev S1x512 : Shape := ⟨2, ![1, 512]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S4x256x256 : S_.BroadcastsInDim S4x256x256 (![] : Fin 0 → Fin S4x256x256.rank)
  reducesTo_S4x256x256_S_d0_1_2 : S4x256x256.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1x512 .f32) (main_arg7 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S1x512 .f32 := Host.absf main_arg6
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S50000x256 .f32) (main_arg1 : IVec S2x800000 32) (main_arg2 : IVec S800000 32) (main_arg3 : FVec F S4x256x256 .f32) (main_arg4 : FVec F S256x256 .f32) (main_arg5 : FVec F S256 .f32) (main_arg6 : FVec F S1x512 .f32) (main_arg7 : FVec F S1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S4x256x256 .f32 := Host.absf main_arg3
  let main_cst_0 : FVec F S_ .f32 := constant S_ .f32 0x7F800000#32
  let main_v5 : FVec F S4x256x256 .f32 := broadcastInDim S4x256x256 ![] bcast_S_S4x256x256 main_cst_0
  let main_v6 : IVec S4x256x256 1 := cmpf .olt main_v4 main_v5
  let main_c_1 : IVec S_ 1 := constantI S_ 1 1#1
  let main_v7 : IVec S_ 1 := (fun x v => Host.reduce IntOp.andi x v reducesTo_S4x256x256_S_d0_1_2 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_v13 main_v16
-- ==== Kernel.lean ====
abbrev S50000x256 : Shape := ⟨2, ![50000, 256]⟩
abbrev S2x800000 : Shape := ⟨2, ![2, 800000]⟩
abbrev S800000 : Shape := ⟨1, ![800000]⟩
abbrev S4x256x256 : Shape := ⟨3, ![4, 256, 256]⟩
abbrev S256x256 : Shape := ⟨2, ![256, 256]⟩
abbrev S256 : Shape := ⟨1, ![256]⟩
abbrev S1x512 : Shape := ⟨2, ![1, 512]⟩
abbrev S1 : Shape := ⟨1, ![1]⟩
abbrev S256x4x256 : Shape := ⟨3, ![256, 4, 256]⟩
abbrev S256x1024 : Shape := ⟨2, ![256, 1024]⟩
abbrev S256x1280 : Shape := ⟨2, ![256, 1280]⟩
abbrev S_ : Shape := ⟨0, ![]⟩
abbrev S1024 : Shape := ⟨1, ![1024]⟩
abbrev S1280 : Shape := ⟨1, ![1280]⟩
abbrev S1x1280 : Shape := ⟨2, ![1, 1280]⟩
abbrev S50000x1280 : Shape := ⟨2, ![50000, 1280]⟩
abbrev S2000x256 : Shape := ⟨2, ![2000, 256]⟩
abbrev S2000x1280 : Shape := ⟨2, ![2000, 1280]⟩
abbrev S1x800000 : Shape := ⟨2, ![1, 800000]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S1x256 : Shape := ⟨2, ![1, 256]⟩
abbrev S1x1 : Shape := ⟨2, ![1, 1]⟩
abbrev S2000 : Shape := ⟨1, ![2000]⟩
abbrev S2000x1 : Shape := ⟨2, ![2000, 1]⟩

abbrev nBuf : Space → Nat
  | .hbm => 165
  | .vmem => 15
  | .smem => 0
  | _ => 0

abbrev hbmTy0_0 (i : Nat) : BufTy := match i % 128 with
  | 0 => ⟨S50000x256, .f32⟩
  | 1 => ⟨S2x800000, .i32⟩
  | 2 => ⟨S800000, .i32⟩
  | 3 => ⟨S4x256x256, .f32⟩
  | 4 => ⟨S256x256, .f32⟩
  | 5 => ⟨S256, .f32⟩
  | 6 => ⟨S1x512, .f32⟩
  | 7 => ⟨S1, .f32⟩
  | 8 => ⟨S256x4x256, .f32⟩
  | 9 => ⟨S256x1024, .f32⟩
  | 10 => ⟨S256x1280, .f32⟩
  | 11 => ⟨S_, .f32⟩
  | 12 => ⟨S1024, .f32⟩
  | 13 => ⟨S1280, .f32⟩
  | 14 => ⟨S1x1280, .f32⟩
  | 15 => ⟨S50000x1280, .f32⟩
  | 16 => ⟨S1x800000, .i32⟩
  | 17 => ⟨S800000, .i32⟩
  | 18 => ⟨S1x800000, .i32⟩
  | 19 => ⟨S800000, .i32⟩
  | 20 => ⟨S50000x256, .f32⟩
  | 21 => ⟨S50000x256, .f32⟩
  | 22 => ⟨S_, .i32⟩
  | 23 => ⟨S800000, .i32⟩
  | 24 => ⟨S800000, .i1⟩
  | 25 => ⟨S800000x1, .i1⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x256, .f32⟩
  | 35 => ⟨S_, .f32⟩
  | 36 => ⟨S_, .f32⟩
  | 37 => ⟨S800000x256, .i1⟩
  | 38 => ⟨S800000x256, .f32⟩
  | 39 => ⟨S800000x256, .f32⟩
  | 40 => ⟨S_, .f32⟩
  | 41 => ⟨S50000x256, .f32⟩
  | 42 => ⟨S800000x1, .i32⟩
  | 43 => ⟨S50000x256, .f32⟩
  | 44 => ⟨S800000, .f32⟩
  | 45 => ⟨S_, .f32⟩
  | 46 => ⟨S50000, .f32⟩
  | 47 => ⟨S800000x1, .i32⟩
  | 48 => ⟨S50000, .f32⟩
  | 49 => ⟨S_, .f32⟩
  | 50 => ⟨S50000, .f32⟩
  | 51 => ⟨S50000, .f32⟩
  | 52 => ⟨S50000x1, .f32⟩
  | 53 => ⟨S50000x256, .f32⟩
  | 54 => ⟨S50000x256, .f32⟩
  | 55 => ⟨S50000x256, .f32⟩
  | 56 => ⟨S50000x256, .f32⟩
  | 57 => ⟨S_, .i32⟩
  | 58 => ⟨S800000, .i32⟩
  | 59 => ⟨S800000, .i1⟩
  | 60 => ⟨S800000x1, .i1⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x256, .f32⟩
  | 70 => ⟨S_, .f32⟩
  | 71 => ⟨S_, .f32⟩
  | 72 => ⟨S800000x256, .i1⟩
  | 73 => ⟨S800000x256, .f32⟩
  | 74 => ⟨S800000x256, .f32⟩
  | 75 => ⟨S_, .f32⟩
  | 76 => ⟨S50000x256, .f32⟩
  | 77 => ⟨S800000x1, .i32⟩
  | 78 => ⟨S50000x256, .f32⟩
  | 79 => ⟨S800000, .f32⟩
  | 80 => ⟨S_, .f32⟩
  | 81 => ⟨S50000, .f32⟩
  | 82 => ⟨S800000x1, .i32⟩
  | 83 => ⟨S50000, .f32⟩
  | 84 => ⟨S_, .f32⟩
  | 85 => ⟨S50000, .f32⟩
  | 86 => ⟨S50000, .f32⟩
  | 87 => ⟨S50000x1, .f32⟩
  | 88 => ⟨S50000x256, .f32⟩
  | 89 => ⟨S50000x256, .f32⟩
  | 90 => ⟨S50000x256, .f32⟩
  | 91 => ⟨S50000x256, .f32⟩
  | 92 => ⟨S_, .i32⟩
  | 93 => ⟨S800000, .i32⟩
  | 94 => ⟨S800000, .i1⟩
  | 95 => ⟨S800000x1, .i1⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x256, .f32⟩
  | 105 => ⟨S_, .f32⟩
  | 106 => ⟨S_, .f32⟩
  | 107 => ⟨S800000x256, .i1⟩
  | 108 => ⟨S800000x256, .f32⟩
  | 109 => ⟨S800000x256, .f32⟩
  | 110 => ⟨S_, .f32⟩
  | 111 => ⟨S50000x256, .f32⟩
  | 112 => ⟨S800000x1, .i32⟩
  | 113 => ⟨S50000x256, .f32⟩
  | 114 => ⟨S800000, .f32⟩
  | 115 => ⟨S_, .f32⟩
  | 116 => ⟨S50000, .f32⟩
  | 117 => ⟨S800000x1, .i32⟩
  | 118 => ⟨S50000, .f32⟩
  | 119 => ⟨S_, .f32⟩
  | 120 => ⟨S50000, .f32⟩
  | 121 => ⟨S50000, .f32⟩
  | 122 => ⟨S50000x1, .f32⟩
  | 123 => ⟨S50000x256, .f32⟩
  | 124 => ⟨S50000x256, .f32⟩
  | 125 => ⟨S50000x256, .f32⟩
  | 126 => ⟨S50000x256, .f32⟩
  | 127 => ⟨S_, .i32⟩
  | _ => ⟨S50000x256, .f32⟩

abbrev hbmTy0_1 (i : Nat) : BufTy := match i % 128 with
  | 0 => ⟨S800000, .i32⟩
  | 1 => ⟨S800000, .i1⟩
  | 2 => ⟨S800000x1, .i1⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000x256, .f32⟩
  | 12 => ⟨S_, .f32⟩
  | 13 => ⟨S_, .f32⟩
  | 14 => ⟨S800000x256, .i1⟩
  | 15 => ⟨S800000x256, .f32⟩
  | 16 => ⟨S800000x256, .f32⟩
  | 17 => ⟨S_, .f32⟩
  | 18 => ⟨S50000x256, .f32⟩
  | 19 => ⟨S800000x1, .i32⟩
  | 20 => ⟨S50000x256, .f32⟩
  | 21 => ⟨S800000, .f32⟩
  | 22 => ⟨S_, .f32⟩
  | 23 => ⟨S50000, .f32⟩
  | 24 => ⟨S800000x1, .i32⟩
  | 25 => ⟨S50000, .f32⟩
  | 26 => ⟨S_, .f32⟩
  | 27 => ⟨S50000, .f32⟩
  | 28 => ⟨S50000, .f32⟩
  | 29 => ⟨S50000x1, .f32⟩
  | 30 => ⟨S50000x256, .f32⟩
  | 31 => ⟨S50000x256, .f32⟩
  | 32 => ⟨S50000x256, .f32⟩
  | 33 => ⟨S1x256, .f32⟩
  | 34 => ⟨S1x256, .f32⟩
  | 35 => ⟨S1x1, .f32⟩
  | 36 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x1280, .f32⟩
  | .local _ .vmem, ⟨3, _⟩ => ⟨S1x1280, .f32⟩
  | .local _ .vmem, ⟨4, _⟩ => ⟨S2000x1280, .f32⟩
  | .local _ .vmem, ⟨5, _⟩ => ⟨S2000x1280, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S1x256, .f32⟩
  | .local _ .vmem, ⟨11, _⟩ => ⟨S1x256, .f32⟩
  | .local _ .vmem, ⟨12, _⟩ => ⟨S1x1, .f32⟩
  | .local _ .vmem, ⟨13, _⟩ => ⟨S2000x256, .f32⟩
  | .local _ .vmem, ⟨14, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_0 : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_7 : Ref sig .tc := ⟨.hbm, 61, rfl⟩
abbrev main_v41 : Ref sig .tc := ⟨.hbm, 62, rfl⟩
abbrev main_v42 : Ref sig .tc := ⟨.hbm, 63, rfl⟩
abbrev main_c_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_12 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_13 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_c_14 : Ref sig .tc := ⟨.hbm, 96, rfl⟩
abbrev main_v66 : Ref sig .tc := ⟨.hbm, 97, rfl⟩
abbrev main_v67 : Ref sig .tc := ⟨.hbm, 98, rfl⟩
abbrev main_c_15 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_16 : Ref sig .tc := ⟨.hbm, 105, rfl⟩
abbrev main_call2_v0 : Ref sig .tc := ⟨.hbm, 106, rfl⟩
abbrev main_call2_v1 : Ref sig .tc := ⟨.hbm, 107, rfl⟩
abbrev main_call2_v2 : Ref sig .tc := ⟨.hbm, 108, rfl⟩
abbrev main_v73 : Ref sig .tc := ⟨.hbm, 109, rfl⟩
abbrev main_cst_17 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_18 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_19 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_c_20 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_c_21 : Ref sig .tc := ⟨.hbm, 131, rfl⟩
abbrev main_v91 : Ref sig .tc := ⟨.hbm, 132, rfl⟩
abbrev main_v92 : Ref sig .tc := ⟨.hbm, 133, rfl⟩
abbrev main_c_22 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_23 : Ref sig .tc := ⟨.hbm, 140, rfl⟩
abbrev main_call3_v0 : Ref sig .tc := ⟨.hbm, 141, rfl⟩
abbrev main_call3_v1 : Ref sig .tc := ⟨.hbm, 142, rfl⟩
abbrev main_call3_v2 : Ref sig .tc := ⟨.hbm, 143, rfl⟩
abbrev main_v98 : Ref sig .tc := ⟨.hbm, 144, rfl⟩
abbrev main_cst_24 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_cst_25 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_cst_26 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  transposes_S4x256x256_S256x4x256_1_0_2 : S4x256x256.Transposes [1, 0, 2] S256x4x256
  shapeCasts_S256x4x256_S256x1024 : S256x4x256.ShapeCasts S256x1024
  concatenates_S256x256_S256x1024_S256x1280_d1 : Shape.Concatenates [S256x256, S256x1024] S256x1280 1
  bcast_S_S1024 : S_.BroadcastsInDim S1024 (![] : Fin 0 → Fin S1024.rank)
  concatenates_S256_S1024_S1280_d0 : Shape.Concatenates [S256, S1024] S1280 0
  shapeCasts_S1280_S1x1280 : S1280.ShapeCasts S1x1280
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x1280_S256x1280_0_0 : ∀ a, (![0, 0] : Fin 2 → Nat) a + S256x1280.size a ≤ S256x1280.size a
  h_S256x1280 : 0 < S256x1280.numel
  shapeCasts_S256x1280_S256x1280 : S256x1280.ShapeCasts S256x1280
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S2000x1280 : S1x1280.Broadcasts S2000x1280
  inb_S2000x1280_S2000x1280_0_0 : ∀ a, (![0, 0] : Fin 2 → Nat) a + S2000x1280.size a ≤ S2000x1280.size a
  h_S2000x1280 : 0 < S2000x1280.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S50000x1280_S50000x256_0_0 : S50000x1280.Slices ![0, 0] S50000x256
  slices_S50000x1280_S50000x256_0_256 : S50000x1280.Slices ![0, 256] S50000x256
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S800000x256 : S_.BroadcastsInDim S800000x256 (![] : Fin 0 → Fin S800000x256.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  slices_S50000x1280_S50000x256_0_512 : S50000x1280.Slices ![0, 512] S50000x256
  slices_S50000x1280_S50000x256_0_768 : S50000x1280.Slices ![0, 768] S50000x256
  slices_S50000x1280_S50000x256_0_1024 : S50000x1280.Slices ![0, 1024] S50000x256
  slices_S1x512_S1x256_0_0 : S1x512.Slices ![0, 0] S1x256
  slices_S1x512_S1x256_0_256 : S1x512.Slices ![0, 256] S1x256
  shapeCasts_S1_S1x1 : S1.ShapeCasts S1x1
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x256_S2000x256 : S1x256.Broadcasts S2000x256
  reduces_S2000x256_S2000 : S2000x256.Reduces [1] S2000
  shapeCasts_S2000_S2000x1 : S2000.ShapeCasts S2000x1
  broadcasts_S1x1_S2000x1 : S1x1.Broadcasts S2000x1
  broadcasts_S2000x1_S2000x256 : S2000x1.Broadcasts S2000x256
  dot_S2000x256_S256x1280_S2000x1280_1_0_0_1_n_n_wf : DotDims.WF S2000x256 S256x1280 S2000x1280 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1280.size a ≤ S256x1280.size a
  hwx0_1 : ∀ i : grid0.Coords, EltTy.bits .f32 = 32 ∨ (Rect.block (s := S256x1280) S256x1280.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1280.size a ≤ S1x1280.size a
  hwx0_2 : ∀ i : grid0.Coords, EltTy.bits .f32 = 32 ∨ (Rect.block (s := S1x1280) S1x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1280.size a ≤ S50000x1280.size a
  hwx0_3 : ∀ i : grid0.Coords, EltTy.bits .f32 = 32 ∨ (Rect.block (s := S50000x1280) S2000x1280.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)

variable [Facts₀]

def dot_S2000x256_S256x1280_S2000x1280_1_0_0_1_n_n : DotDims S2000x256 S256x1280 S2000x1280 where
  lhsContracting := [1]
  rhsContracting := [0]
  lhsNonContracting := [0]
  rhsNonContracting := [1]
  lhsBatch := []
  rhsBatch := []
  wf := dot_S2000x256_S256x1280_S2000x1280_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x1280.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1280.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2000x1280.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v111) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v112) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v113) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v114) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v115) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000 : Shape := ⟨1, ![800000]⟩
abbrev S4x256x256 : Shape := ⟨3, ![4, 256, 256]⟩
abbrev S256x256 : Shape := ⟨2, ![256, 256]⟩
abbrev S256 : Shape := ⟨1, ![256]⟩
abbrev S1x512 : Shape := ⟨2, ![1, 512]⟩
abbrev S1 : Shape := ⟨1, ![1]⟩
abbrev S1x800000 : Shape := ⟨2, ![1, 800000]⟩
abbrev S1x256 : Shape := ⟨2, ![1, 256]⟩
abbrev S1x256x256 : Shape := ⟨3, ![1, 256, 256]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S50000x512 : Shape := ⟨2, ![50000, 512]⟩
abbrev S512x1 : Shape := ⟨2, ![512, 1]⟩
abbrev S1x1 : Shape := ⟨2, ![1, 1]⟩

abbrev nBuf : Space → Nat
  | .hbm => 187
  | .vmem => 0
  | .smem => 0
  | _ => 0

abbrev hbmTy0_0 (i : Nat) : BufTy := match i % 128 with
  | 0 => ⟨S50000x256, .f32⟩
  | 1 => ⟨S2x800000, .i32⟩
  | 2 => ⟨S800000, .i32⟩
  | 3 => ⟨S4x256x256, .f32⟩
  | 4 => ⟨S256x256, .f32⟩
  | 5 => ⟨S256, .f32⟩
  | 6 => ⟨S1x512, .f32⟩
  | 7 => ⟨S1, .f32⟩
  | 8 => ⟨S1x800000, .i32⟩
  | 9 => ⟨S800000, .i32⟩
  | 10 => ⟨S1x800000, .i32⟩
  | 11 => ⟨S800000, .i32⟩
  | 12 => ⟨S50000x256, .f32⟩
  | 13 => ⟨S1x256, .f32⟩
  | 14 => ⟨S50000x256, .f32⟩
  | 15 => ⟨S50000x256, .f32⟩
  | 16 => ⟨S1x256x256, .f32⟩
  | 17 => ⟨S256x256, .f32⟩
  | 18 => ⟨S50000x256, .f32⟩
  | 19 => ⟨S_, .i32⟩
  | 20 => ⟨S800000, .i32⟩
  | 21 => ⟨S800000, .i1⟩
  | 22 => ⟨S800000x1, .i1⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x256, .f32⟩
  | 32 => ⟨S_, .f32⟩
  | 33 => ⟨S_, .f32⟩
  | 34 => ⟨S800000x256, .i1⟩
  | 35 => ⟨S800000x256, .f32⟩
  | 36 => ⟨S800000x256, .f32⟩
  | 37 => ⟨S_, .f32⟩
  | 38 => ⟨S50000x256, .f32⟩
  | 39 => ⟨S800000x1, .i32⟩
  | 40 => ⟨S50000x256, .f32⟩
  | 41 => ⟨S800000, .f32⟩
  | 42 => ⟨S_, .f32⟩
  | 43 => ⟨S50000, .f32⟩
  | 44 => ⟨S800000x1, .i32⟩
  | 45 => ⟨S50000, .f32⟩
  | 46 => ⟨S_, .f32⟩
  | 47 => ⟨S50000, .f32⟩
  | 48 => ⟨S50000, .f32⟩
  | 49 => ⟨S50000x1, .f32⟩
  | 50 => ⟨S50000x256, .f32⟩
  | 51 => ⟨S50000x256, .f32⟩
  | 52 => ⟨S50000x256, .f32⟩
  | 53 => ⟨S1x256x256, .f32⟩
  | 54 => ⟨S256x256, .f32⟩
  | 55 => ⟨S50000x256, .f32⟩
  | 56 => ⟨S_, .i32⟩
  | 57 => ⟨S800000, .i32⟩
  | 58 => ⟨S800000, .i1⟩
  | 59 => ⟨S800000x1, .i1⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x256, .f32⟩
  | 69 => ⟨S_, .f32⟩
  | 70 => ⟨S_, .f32⟩
  | 71 => ⟨S800000x256, .i1⟩
  | 72 => ⟨S800000x256, .f32⟩
  | 73 => ⟨S800000x256, .f32⟩
  | 74 => ⟨S_, .f32⟩
  | 75 => ⟨S50000x256, .f32⟩
  | 76 => ⟨S800000x1, .i32⟩
  | 77 => ⟨S50000x256, .f32⟩
  | 78 => ⟨S800000, .f32⟩
  | 79 => ⟨S_, .f32⟩
  | 80 => ⟨S50000, .f32⟩
  | 81 => ⟨S800000x1, .i32⟩
  | 82 => ⟨S50000, .f32⟩
  | 83 => ⟨S_, .f32⟩
  | 84 => ⟨S50000, .f32⟩
  | 85 => ⟨S50000, .f32⟩
  | 86 => ⟨S50000x1, .f32⟩
  | 87 => ⟨S50000x256, .f32⟩
  | 88 => ⟨S50000x256, .f32⟩
  | 89 => ⟨S50000x256, .f32⟩
  | 90 => ⟨S1x256x256, .f32⟩
  | 91 => ⟨S256x256, .f32⟩
  | 92 => ⟨S50000x256, .f32⟩
  | 93 => ⟨S_, .i32⟩
  | 94 => ⟨S800000, .i32⟩
  | 95 => ⟨S800000, .i1⟩
  | 96 => ⟨S800000x1, .i1⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x256, .f32⟩
  | 106 => ⟨S_, .f32⟩
  | 107 => ⟨S_, .f32⟩
  | 108 => ⟨S800000x256, .i1⟩
  | 109 => ⟨S800000x256, .f32⟩
  | 110 => ⟨S800000x256, .f32⟩
  | 111 => ⟨S_, .f32⟩
  | 112 => ⟨S50000x256, .f32⟩
  | 113 => ⟨S800000x1, .i32⟩
  | 114 => ⟨S50000x256, .f32⟩
  | 115 => ⟨S800000, .f32⟩
  | 116 => ⟨S_, .f32⟩
  | 117 => ⟨S50000, .f32⟩
  | 118 => ⟨S800000x1, .i32⟩
  | 119 => ⟨S50000, .f32⟩
  | 120 => ⟨S_, .f32⟩
  | 121 => ⟨S50000, .f32⟩
  | 122 => ⟨S50000, .f32⟩
  | 123 => ⟨S50000x1, .f32⟩
  | 124 => ⟨S50000x256, .f32⟩
  | 125 => ⟨S50000x256, .f32⟩
  | 126 => ⟨S50000x256, .f32⟩
  | 127 => ⟨S1x256x256, .f32⟩
  | _ => ⟨S50000x256, .f32⟩

abbrev hbmTy0_1 (i : Nat) : BufTy := match i % 128 with
  | 0 => ⟨S256x256, .f32⟩
  | 1 => ⟨S50000x256, .f32⟩
  | 2 => ⟨S_, .i32⟩
  | 3 => ⟨S800000, .i32⟩
  | 4 => ⟨S800000, .i1⟩
  | 5 => ⟨S800000x1, .i1⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x256, .f32⟩
  | 15 => ⟨S_, .f32⟩
  | 16 => ⟨S_, .f32⟩
  | 17 => ⟨S800000x256, .i1⟩
  | 18 => ⟨S800000x256, .f32⟩
  | 19 => ⟨S800000x256, .f32⟩
  | 20 => ⟨S_, .f32⟩
  | 21 => ⟨S50000x256, .f32⟩
  | 22 => ⟨S800000x1, .i32⟩
  | 23 => ⟨S50000x256, .f32⟩
  | 24 => ⟨S800000, .f32⟩
  | 25 => ⟨S_, .f32⟩
  | 26 => ⟨S50000, .f32⟩
  | 27 => ⟨S800000x1, .i32⟩
  | 28 => ⟨S50000, .f32⟩
  | 29 => ⟨S_, .f32⟩
  | 30 => ⟨S50000, .f32⟩
  | 31 => ⟨S50000, .f32⟩
  | 32 => ⟨S50000x1, .f32⟩
  | 33 => ⟨S50000x256, .f32⟩
  | 34 => ⟨S50000x256, .f32⟩
  | 35 => ⟨S50000x256, .f32⟩
  | 36 => ⟨S50000x512, .f32⟩
  | 37 => ⟨S512x1, .f32⟩
  | 38 => ⟨S50000x1, .f32⟩
  | 39 => ⟨S1x1, .f32⟩
  | 40 => ⟨S50000x1, .f32⟩
  | 41 => ⟨S50000x1, .f32⟩
  | 42 => ⟨S50000x1, .f32⟩
  | 43 => ⟨S50000x1, .f32⟩
  | 44 => ⟨S_, .f32⟩
  | 45 => ⟨S50000x1, .f32⟩
  | 46 => ⟨S50000x1, .f32⟩
  | 47 => ⟨S_, .f32⟩
  | 48 => ⟨S50000x1, .f32⟩
  | 49 => ⟨S50000x1, .f32⟩
  | 50 => ⟨S50000x256, .f32⟩
  | 51 => ⟨S50000x256, .f32⟩
  | 52 => ⟨S50000x256, .f32⟩
  | 53 => ⟨S_, .f32⟩
  | 54 => ⟨S50000x1, .f32⟩
  | 55 => ⟨S50000x1, .f32⟩
  | 56 => ⟨S50000x256, .f32⟩
  | 57 => ⟨S50000x256, .f32⟩
  | 58 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_6 : Ref sig .tc := ⟨.hbm, 60, rfl⟩
abbrev main_v41 : Ref sig .tc := ⟨.hbm, 61, rfl⟩
abbrev main_v42 : Ref sig .tc := ⟨.hbm, 62, rfl⟩
abbrev main_c_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_8 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v48 : Ref sig .tc := ⟨.hbm, 73, rfl⟩
abbrev main_cst_9 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_12 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_13 : Ref sig .tc := ⟨.hbm, 97, rfl⟩
abbrev main_v68 : Ref sig .tc := ⟨.hbm, 98, rfl⟩
abbrev main_v69 : Ref sig .tc := ⟨.hbm, 99, rfl⟩
abbrev main_c_14 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_15 : Ref sig .tc := ⟨.hbm, 106, rfl⟩
abbrev main_call2_v0 : Ref sig .tc := ⟨.hbm, 107, rfl⟩
abbrev main_call2_v1 : Ref sig .tc := ⟨.hbm, 108, rfl⟩
abbrev main_call2_v2 : Ref sig .tc := ⟨.hbm, 109, rfl⟩
abbrev main_v75 : Ref sig .tc := ⟨.hbm, 110, rfl⟩
abbrev main_cst_16 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_17 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_18 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_c_19 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_c_20 : Ref sig .tc := ⟨.hbm, 134, rfl⟩
abbrev main_v95 : Ref sig .tc := ⟨.hbm, 135, rfl⟩
abbrev main_v96 : Ref sig .tc := ⟨.hbm, 136, rfl⟩
abbrev main_c_21 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_22 : Ref sig .tc := ⟨.hbm, 143, rfl⟩
abbrev main_call3_v0 : Ref sig .tc := ⟨.hbm, 144, rfl⟩
abbrev main_call3_v1 : Ref sig .tc := ⟨.hbm, 145, rfl⟩
abbrev main_call3_v2 : Ref sig .tc := ⟨.hbm, 146, rfl⟩
abbrev main_v102 : Ref sig .tc := ⟨.hbm, 147, rfl⟩
abbrev main_cst_23 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_cst_24 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_cst_25 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_cst_26 : Ref sig .tc := ⟨.hbm, 172, rfl⟩
abbrev main_v124 : Ref sig .tc := ⟨.hbm, 173, rfl⟩
abbrev main_v125 : Ref sig .tc := ⟨.hbm, 174, rfl⟩
abbrev main_cst_27 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_cst_28 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S4x256x256_S1x256x256_0_0_0 : S4x256x256.Slices ![0, 0, 0] S1x256x256
  shapeCasts_S1x256x256_S256x256 : S1x256x256.ShapeCasts S256x256
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S800000x256 : S_.BroadcastsInDim S800000x256 (![] : Fin 0 → Fin S800000x256.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  slices_S4x256x256_S1x256x256_1_0_0 : S4x256x256.Slices ![1, 0, 0] S1x256x256
  slices_S4x256x256_S1x256x256_2_0_0 : S4x256x256.Slices ![2, 0, 0] S1x256x256
  slices_S4x256x256_S1x256x256_3_0_0 : S4x256x256.Slices ![3, 0, 0] S1x256x256
  concatenates_S50000x256_S50000x256_S50000x512_d1 : Shape.Concatenates [S50000x256, S50000x256] S50000x512 1
  transposes_S1x512_S512x1_1_0 : S1x512.Transposes [1, 0] S512x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x512_S512x1_S50000x1_1_0_0_1_n_n_wf : DotDims.WF S50000x512 S512x1 S50000x1 [1] [0] [0] [1] [] []

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x512_S512x1_S50000x1_1_0_0_1_n_n : DotDims S50000x512 S512x1 S50000x1 where
  lhsContracting := [1]
  rhsContracting := [0]
  lhsNonContracting := [0]
  rhsNonContracting := [1]
  lhsBatch := []
  rhsBatch := []
  wf := dot_S50000x512_S512x1_S50000x1_1_0_0_1_n_n_wf

class Facts : Prop extends Facts₀ where

variable [Facts]
-- ==== Proof.KernelRun.lean ====
/-
  The idealized kernel program's run with its result NAMED, and what the buffers hold at the boundaries between its
  segments.

  The program is a stretch of host operations (the stacked weight and bias are built), a first dense region (the fused
  linear stage), nine stretches of host operations (the per-relation mean aggregation), and a second dense region (the
  gate). Every weakly fair execution terminates with the result buffer at the contents the last boundary gives it and
  the arguments unchanged. The contents at a boundary are a fold over the segments: a host stretch rewrites the buffers
  its operations write, a region rewrites its own arrays by what its grid points write back. Read at one buffer, the fold
  walks back to the launch memory through the segments that do not write that buffer.
-/
import proofs.«146138_j24567212933530_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run, with the result buffer at the last boundary's contents -/

set_option backward.isDefEq.respectTransparency.types false in
/-- Every weakly fair execution of the program terminates, nothing faulting; the result buffer ends at what the last
    boundary's contents give it, and every argument as launched. -/
theorem run_result : θ_run defs (onTc (τ := τ) (main (F := F))) ⟨m, fun _ => 0, ρ⟩ (fun r => ∀ c : Dev nD,
      r.2.mem ((c.tc : Thread nD τ).loc main_v115) = W12 m ρ c (Proc.devRef .tc main_v115)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v115 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

/-! ## The contents at the boundaries, read at one buffer -/

/-- The result buffer at the last boundary is the second region's output array after its last grid point. -/
theorem W12_result (c : Dev nD) : W12 m ρ c (Proc.devRef .tc main_v115) = (dat1 (V11 m ρ) c).arrAt 5 cfg1.N :=
  W12_arr m ρ c 5

/-- The first region's output buffer at its exit is its output array after its last grid point. -/
theorem W2_linear (c : Dev nD) : W2 m ρ c (Proc.devRef .tc main_v6) = (dat0 (V1 m ρ) c).arrAt 3 cfg0.N :=
  W2_arr m ρ c 3

/-- No host operation before the first region writes an argument. -/
theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl
theorem W1_arg1 (c : Dev nD) : W1 m ρ c (Proc.devRef .tc main_arg1) = m ((c : Thread nD τ).loc main_arg1) := by
  show StableHlo.after hostOps0 (W0 m ρ c) (Proc.devRef .tc main_arg1) = _
  after_results_simp <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results_simp <;> rfl
theorem W1_arg7 (c : Dev nD) : W1 m ρ c (Proc.devRef .tc main_arg7) = m ((c : Thread nD τ).loc main_arg7) := by
  show StableHlo.after hostOps0 (W0 m ρ c) (Proc.devRef .tc main_arg7) = _
  after_results_simp <;> rfl

/-- The first region reads the node features through an input window and leaves them; it touches no other argument. -/
theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_arg0 m ρ c)
theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)

end Cert.KernelIdeal.RunValue

end
-- ==== Proof.Spec.lean ====
/-
  The two dense stages of a gated relational graph layer, each as ONE function of whole arrays, read index by index
  over the extended reals.

  * The fused linear stage multiplies the node features (50000 rows of 256) by a stacked weight of 1280 columns
    and adds a stacked bias row: entry (n, q) is the sum over k of x(n,k) * w(k,q), plus b(0,q).
  * The gate stage scores node n by two dot products of length 256 — the aggregated row u(n,.) against w0 and the
    feature row x(n,.) against w1 — plus a scalar bias, passes the score through the logistic function, and mixes
    tanh(u) with x by that weight: tanh(u(n,c)) * a(n) + x(n,c) * (1 - a(n)).

  Both programs of this certificate compute these two functions; the kernel block by block (2000 rows at a time),
  the reference on whole arrays with the score's two dot products fused into one of length 512.
-/
import Idealize.ShloMosaic.PureOps.Ideal
import Idealize.ShloMosaic.PureOps.IdealRules
import Idealize.ShloMosaic.PureOps.Ideal.Laws
import Idealize.ShloMosaic.Lib.ValueIdx

noncomputable section

open scoped BigOperators

namespace Cert.Spec

open Idealize.ShloMosaic Idealize.ShloMosaic.ValueIdx

/-- The f32 word of 1.0 denotes the extended real 1. -/
theorem ofBits_one_f32 : Ideal.ofBits .f32 0x3F800000#32 = 1 := IdealRules.sign_bit.ideal_onePat .f32

/-- The fused linear stage: row `n` of `x` against column `q` of the stacked weight, plus the stacked bias at `q`. -/
def linSpec (x : FVec Ideal ⟨2, ![50000, 256]⟩ .f32) (w : FVec Ideal ⟨2, ![256, 1280]⟩ .f32)
    (b : FVec Ideal ⟨2, ![1, 1280]⟩ .f32) : FVec Ideal ⟨2, ![50000, 1280]⟩ .f32 :=
  fun j => (∑ k : Fin 256, x (ix2 (j 0) k) * w (ix2 k (j 1))) + b (ix2 (0 : Fin 1) (j 1))

theorem linSpec_apply (x : FVec Ideal ⟨2, ![50000, 256]⟩ .f32) (w : FVec Ideal ⟨2, ![256, 1280]⟩ .f32)
    (b : FVec Ideal ⟨2, ![1, 1280]⟩ .f32) (n : Fin 50000) (q : Fin 1280) :
    linSpec x w b (ix2 n q) = (∑ k : Fin 256, x (ix2 n k) * w (ix2 k q)) + b (ix2 (0 : Fin 1) q) := rfl

/-- The attention score of node `n`: the aggregated row against `w0`, the feature row against `w1`, plus the bias. -/
def score (u x : FVec Ideal ⟨2, ![50000, 256]⟩ .f32) (w0 w1 : FVec Ideal ⟨2, ![1, 256]⟩ .f32)
    (b : FVec Ideal ⟨2, ![1, 1]⟩ .f32) (n : Fin 50000) : EReal :=
  ((∑ k : Fin 256, u (ix2 n k) * w0 (ix2 (0 : Fin 1) k)) + (∑ k : Fin 256, x (ix2 n k) * w1 (ix2 (0 : Fin 1) k)))
    + b (ix2 (0 : Fin 1) (0 : Fin 1))

/-- The gate stage: `tanh u` and `x` mixed by the logistic of the node's score. The `1` of `1 - a` is kept as the
    f32 word both programs write. -/
def gateSpec (u x : FVec Ideal ⟨2, ![50000, 256]⟩ .f32) (w0 w1 : FVec Ideal ⟨2, ![1, 256]⟩ .f32)
    (b : FVec Ideal ⟨2, ![1, 1]⟩ .f32) : FVec Ideal ⟨2, ![50000, 256]⟩ .f32 :=
  fun j => Ideal.tanh (u j) * Ideal.logistic (score u x w0 w1 b (j 0))
    + x j * (Ideal.ofBits .f32 0x3F800000#32 - Ideal.logistic (score u x w0 w1 b (j 0)))

theorem gateSpec_apply (u x : FVec Ideal ⟨2, ![50000, 256]⟩ .f32) (w0 w1 : FVec Ideal ⟨2, ![1, 256]⟩ .f32)
    (b : FVec Ideal ⟨2, ![1, 1]⟩ .f32) (n : Fin 50000) (q : Fin 256) :
    gateSpec u x w0 w1 b (ix2 n q) = Ideal.tanh (u (ix2 n q)) * Ideal.logistic (score u x w0 w1 b n)
      + x (ix2 n q) * (Ideal.ofBits .f32 0x3F800000#32 - Ideal.logistic (score u x w0 w1 b n)) := rfl

/-- The logistic function spelt with the f32 word of 1.0 as numerator and summand, as a host program expands it. -/
theorem logistic_eq_words (s : EReal) :
    Ideal.div (Ideal.ofBits .f32 0x3F800000#32) (Ideal.ofBits .f32 0x3F800000#32 + Ideal.exp (-s)) = Ideal.logistic s := by
  rw [ofBits_one_f32]; rfl

end Cert.Spec

end
-- ==== Proof.LibKeepdims.lean ====
/-
  Rank-2 vectors with a kept column, read at an index: the cast of a length-`a` vector to a column [a, 1], the
  broadcast of a column [a, 1] along the rows of [a, b], and the sum and the maximum of each row of an [a, b]
  vector over the extended reals.  Each says which ONE operand entry (or which row of entries) a result entry reads.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type} {a b : ℕ}

/-- Entry `(n, 0)` of the column cast of a vector is the vector's entry `n`: both sit at row-major position `n`. -/
theorem shapeCast_col_apply (x : (⟨1, ![a]⟩ : Shape).Idx → α) (h : (⟨1, ![a]⟩ : Shape).ShapeCasts ⟨2, ![a, 1]⟩) (n : Fin a) :
    shapeCast ⟨2, ![a, 1]⟩ x h (ix2 n (0 : Fin 1)) = x (ix1 n) :=
  shapeCast_apply x h (ix2 n (0 : Fin 1)) (ix1 n) (by
    rw [Shape.rowMajor_val_one, Shape.rowMajor_val_two]
    show n.val = n.val * 1 + 0
    omega)

/-- Entry `(n, d)` of a column broadcast along the rows is the column's entry `(n, 0)`. -/
theorem broadcastTo_col_apply (x : (⟨2, ![a, 1]⟩ : Shape).Idx → α) (h : (⟨2, ![a, 1]⟩ : Shape).Broadcasts ⟨2, ![a, b]⟩)
    (n : Fin a) (d : Fin b) : broadcastTo ⟨2, ![a, b]⟩ x h (ix2 n d) = x (ix2 n (0 : Fin 1)) :=
  broadcastTo_apply x h (ix2 n d) (ix2 n (0 : Fin 1)) (fun k => by
    match k with
    | ⟨0, _⟩ =>
      show n.val = if a = 1 then 0 else n.val
      have := n.isLt
      split <;> omega
    | ⟨1, _⟩ => rfl)

/-- The reduced index `n` of a row reduction with the column `k` put back is `(n, k)`. -/
theorem lift_row (h : (⟨2, ![a, b]⟩ : Shape).Reduces [1] ⟨1, ![a]⟩) (n : Fin a) (k : Fin b) :
    h.lift (ix1 n) k = ix2 n k := by
  funext c; apply Fin.ext
  fin_cases c <;> rfl

variable {φ : FTy}

/-- A row sum at row `n` is the sum of that row's entries. -/
theorem rowsum_apply (src : FVec Ideal ⟨2, ![a, b]⟩ φ) (acc : BitVec φ.bits) (h : (⟨2, ![a, b]⟩ : Shape).Reduces [1] ⟨1, ![a]⟩)
    (hφ : FKind.Formats φ) (hacc : acc = FKind.add.neutral φ hφ) (n : Fin a) :
    multiReduction .add [1] ⟨1, ![a]⟩ src acc h hφ hacc (ix1 n) = ∑ k : Fin b, src (ix2 n k) :=
  (Ideal.multiReduction_add_single src acc h hφ hacc (ix1 n)).trans
    (Finset.sum_congr rfl fun k _ => congrArg src (lift_row h n k))

/-- A row maximum at row `n` is the fold of `max` over that row's entries from the accumulator's value. -/
theorem rowmax_apply (src : FVec Ideal ⟨2, ![a, b]⟩ φ) (acc : BitVec φ.bits) (h : (⟨2, ![a, b]⟩ : Shape).Reduces [1] ⟨1, ![a]⟩)
    (hφ : FKind.Formats φ) (hacc : acc = FKind.maximumf.neutral φ hφ) (n : Fin a) :
    multiReduction .maximumf [1] ⟨1, ![a]⟩ src acc h hφ hacc (ix1 n)
      = (Finset.univ : Finset (Fin b)).fold max (Ideal.ofBits φ acc) (fun k => src (ix2 n k)) :=
  (Ideal.multiReduction_maximumf_single src acc h hφ hacc (ix1 n)).trans
    (congrArg (fun f => (Finset.univ : Finset (Fin b)).fold max (Ideal.ofBits φ acc) f)
      (funext fun k => congrArg src (lift_row h n k)))

end Cert.LibKeepdims

end
-- ==== Proof.LibRowOps.lean ====
/-
  Three shape operations read at an index, for rank-2 vectors with a unit leading axis and for a plain matrix
  product: the cast of a length-`b` vector to a row [1, b], the broadcast of a row [1, b] down the rows of [a, b],
  and the product of an [m, k] by a [k, n] matrix accumulated into the zero splat, over the extended reals.
-/
import Idealize.ShloMosaic.Lib.Pipeline.Value
import Idealize.ShloMosaic.Lib.ValueIdx
import Idealize.ShloMosaic.PureOps.Ideal.Laws

noncomputable section

namespace Cert.KernelBody

open Idealize.ShloMosaic Idealize.ShloMosaic.ValueIdx

variable {α : Type} {a b : ℕ}

/-- Entry `(0, k)` of the row cast of a vector is the vector's entry `k`: both sit at row-major position `k`. -/
theorem shapeCast_row_apply (x : (⟨1, ![b]⟩ : Shape).Idx → α) (h : (⟨1, ![b]⟩ : Shape).ShapeCasts ⟨2, ![1, b]⟩) (k : Fin b) :
    shapeCast ⟨2, ![1, b]⟩ x h (ix2 (0 : Fin 1) k) = x (ix1 k) :=
  shapeCast_apply x h (ix2 (0 : Fin 1) k) (ix1 k) (by
    rw [Shape.rowMajor_val_one, Shape.rowMajor_val_two]
    show k.val = 0 * b + k.val
    omega)

/-- Entry `(n, k)` of a row broadcast down the rows is the row's entry `(0, k)`. -/
theorem broadcastTo_row_apply (x : (⟨2, ![1, b]⟩ : Shape).Idx → α) (h : (⟨2, ![1, b]⟩ : Shape).Broadcasts ⟨2, ![a, b]⟩)
    (n : Fin a) (k : Fin b) : broadcastTo ⟨2, ![a, b]⟩ x h (ix2 n k) = x (ix2 (0 : Fin 1) k) :=
  broadcastTo_apply x h (ix2 n k) (ix2 (0 : Fin 1) k) (fun c => by
    match c with
    | ⟨0, _⟩ => rfl
    | ⟨1, _⟩ =>
      show k.val = if b = 1 then 0 else k.val
      have := k.isLt
      split <;> omega)

/-- The product of an m×k by a k×n matrix (contracting the left operand's axis 1 with the right operand's axis 0)
    accumulated into the zero splat, read at `(r, c)`, is the sum over the contracted coordinate of the products of
    the entries. `w` is the record's well-formedness, which a program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    matmul (⟨[1], [0], [0], [1], [], [], w⟩ : DotDims _ _ _) prec A B
        (constant (F := Ideal) ⟨2, ![m, n]⟩ .f32 0x00000000#32) (ix2 r c)
      = ∑ i : Fin k, A (ix2 r i) * B (ix2 i c) := by
  show FloatOps.matmul _ prec A B (constant (F := Ideal) ⟨2, ![m, n]⟩ .f32 0x00000000#32) (ix2 r c) = _
  rw [Ideal.matmul_constant_zero_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

end Cert.KernelBody

end
-- ==== Proof.GateBlock.lean ====
/-
  The gate stage block by block.  One grid point of the second region reads 2000 rows of the aggregated features and of
  the node features, the two weight rows and the scalar bias, and writes 2000 rows of the mix
  tanh(u) * a + x * (1 - a), a the logistic of the row's score.  Read at an index the stored block is the gate function
  of the whole arrays at the corresponding row; the 25 blocks tile the 50000 rows, so the array the region leaves is the
  gate function of the arrays it found.
-/
import proofs.«146138_j24567212933530_1_alg».proof.Proof.Gen.KernelIdeal.Frame
import proofs.«146138_j24567212933530_1_alg».proof.Proof.Spec
import proofs.«146138_j24567212933530_1_alg».proof.Proof.LibKeepdims
import proofs.«146138_j24567212933530_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.GateValue

open Cert.KernelIdeal Cert.KernelIdeal.Gen Idealize.ShloMosaic Idealize.ShloMosaic.TcCoe Idealize.ShloMosaic.ValueIdx
open Idealize.SL.Sem Idealize.ShloMosaic.Pipeline

/-- The score of row `p` of a block: the row of `v0` against the first weight row, the row of `v2` against the second,
    plus the bias. -/
def rowScore (v0 v2 : FVec Ideal S2000x256 .f32) (v3 v5 : FVec Ideal S1x256 .f32) (v7 : FVec Ideal S1x1 .f32) (p : Fin 2000) : EReal :=
  ((∑ k : Fin 256, v0 (ix2 p k) * v3 (ix2 (0 : Fin 1) k)) + (∑ k : Fin 256, v2 (ix2 p k) * v5 (ix2 (0 : Fin 1) k)))
    + v7 (ix2 (0 : Fin 1) (0 : Fin 1))

/-- One lane sum kept as a column: row `p` of `v` against the weight row `w`. -/
theorem laneSum_apply (v : FVec Ideal S2000x256 .f32) (w : FVec Ideal S1x256 .f32) (p : Fin 2000) :
    shapeCast S2000x1 (multiReduction (F := Ideal) .add [1] S2000 (mulf v (broadcastTo S2000x256 w broadcasts_S1x256_S2000x256))
        0x00000000#32 reduces_S2000x256_S2000 (.inl rfl) rfl) shapeCasts_S2000_S2000x1 (ix2 p (0 : Fin 1))
      = ∑ k : Fin 256, v (ix2 p k) * w (ix2 (0 : Fin 1) k) := by
  refine (Cert.LibKeepdims.shapeCast_col_apply _ _ p).trans ?_
  refine (Cert.LibKeepdims.rowsum_apply _ _ _ _ _ p).trans ?_
  refine Finset.sum_congr rfl fun k _ => ?_
  exact congrArg (v (ix2 p k) * ·) (Cert.KernelBody.broadcastTo_row_apply w broadcasts_S1x256_S2000x256 p k)

/-- The column of gate weights at row `p`: the logistic of the row's score. -/
theorem gateCol_apply (v0 v2 : FVec Ideal S2000x256 .f32) (v3 v5 : FVec Ideal S1x256 .f32) (v7 : FVec Ideal S1x1 .f32) (p : Fin 2000) :
    logistic (addf (addf
        (shapeCast S2000x1 (multiReduction (F := Ideal) .add [1] S2000 (mulf v0 (broadcastTo S2000x256 v3 broadcasts_S1x256_S2000x256))
          0x00000000#32 reduces_S2000x256_S2000 (.inl rfl) rfl) shapeCasts_S2000_S2000x1)
        (shapeCast S2000x1 (multiReduction (F := Ideal) .add [1] S2000 (mulf v2 (broadcastTo S2000x256 v5 broadcasts_S1x256_S2000x256))
          0x00000000#32 reduces_S2000x256_S2000 (.inl rfl) rfl) shapeCasts_S2000_S2000x1))
        (broadcastTo S2000x1 v7 broadcasts_S1x1_S2000x1)) (ix2 p (0 : Fin 1))
      = Ideal.logistic (rowScore v0 v2 v3 v5 v7 p) := by
  show Ideal.logistic ((_ + _) + _) = _
  rw [laneSum_apply, laneSum_apply, Cert.KernelBody.broadcastTo_row_apply v7 broadcasts_S1x1_S2000x1 p (0 : Fin 1)]
  rfl

/-- The mix of `tanh v0` and `v2` by a column `L` of weights, at `(p, q)`. -/
theorem mix_apply (v0 v2 : FVec Ideal S2000x256 .f32) (L : FVec Ideal S2000x1 .f32) (p : Fin 2000) (q : Fin 256) :
    addf (mulf (tanh v0) (broadcastTo S2000x256 L broadcasts_S2000x1_S2000x256))
        (mulf v2 (broadcastTo S2000x256 (subf (broadcast S2000x1 (Scalar.ofBits (F := Ideal) .f32 0x3F800000#32)) L)
          broadcasts_S2000x1_S2000x256)) (ix2 p q)
      = Ideal.tanh (v0 (ix2 p q)) * L (ix2 p (0 : Fin 1))
        + v2 (ix2 p q) * (Ideal.ofBits .f32 0x3F800000#32 - L (ix2 p (0 : Fin 1))) := by
  show Ideal.tanh (v0 (ix2 p q)) * broadcastTo S2000x256 L broadcasts_S2000x1_S2000x256 (ix2 p q)
      + v2 (ix2 p q) * broadcastTo S2000x256 (subf (broadcast S2000x1 (Scalar.ofBits (F := Ideal) .f32 0x3F800000#32)) L)
          broadcasts_S2000x1_S2000x256 (ix2 p q) = _
  rw [Cert.LibKeepdims.broadcastTo_col_apply L broadcasts_S2000x1_S2000x256 p q,
    Cert.LibKeepdims.broadcastTo_col_apply _ broadcasts_S2000x1_S2000x256 p q]
  rfl

/-- The stored block at `(p, q)`. -/
theorem pay_apply (v0 v2 : FVec Ideal S2000x256 .f32) (v3 v5 : FVec Ideal S1x256 .f32) (v7 : FVec Ideal S1x1 .f32)
    (p : Fin 2000) (q : Fin 256) :
    k1_pay1 (F := Ideal) v0 v2 v3 v5 v7 (ix2 p q)
      = Ideal.tanh (v0 (ix2 p q)) * Ideal.logistic (rowScore v0 v2 v3 v5 v7 p)
        + v2 (ix2 p q) * (Ideal.ofBits .f32 0x3F800000#32 - Ideal.logistic (rowScore v0 v2 v3 v5 v7 p)) := by
  unfold k1_pay1
  simp only [shapeCast_self]
  refine (mix_apply _ _ _ p q).trans ?_
  rw [gateCol_apply]

/-! ## The blocks of the region's windows -/

variable (V : (c : Dev nD) → (b : Ref sig .tc) → Buf (Elt Ideal) ((c : Thread nD τ).loc b))

theorem zeros2 : (![0, 0] : Fin 2 → Nat) = fun _ => 0 := funext fun a => by fin_cases a <;> rfl

/-- The index maps over the grid: the three windows cut in blocks of 2000 rows sit at block `t`, the weight rows and the
    bias at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of block `t` of the aggregated features is row `2000 t + p` of the array. -/
theorem read0 (c : Dev nD) (t : Fin cfg1.N) (p : Fin 2000) (k : Fin 256) (n : Fin 50000) (hn : n.val = t.val * 2000 + p.val) :
    (iblk1 V c 0 t : Vec Ideal S2000x256 .f32) (ix2 p k) = (V c main_v111 : S50000x256.Idx → Elt Ideal .f32) (ix2 n k) := by
  obtain ⟨e0, e1, -⟩ := idx_facts t
  unfold iblk1
  show V c main_v111 (((cfg1.win 0).blk t).view.emb (ix2 p k)) = V c main_v111 (ix2 n k)
  refine congrArg (V c main_v111) ?_
  funext a; apply Fin.ext
  match a with
  | ⟨0, _⟩ => show win1_0.index t (0 : Fin 2) * 2000 + 1 * p.val = n.val; rw [e0, hn]; omega
  | ⟨1, _⟩ => show win1_0.index t (1 : Fin 2) * 256 + 1 * k.val = k.val; rw [e1]; omega

/-- The same for the node features. -/
theorem read1 (c : Dev nD) (t : Fin cfg1.N) (p : Fin 2000) (k : Fin 256) (n : Fin 50000) (hn : n.val = t.val * 2000 + p.val) :
    (iblk1 V c 1 t : Vec Ideal S2000x256 .f32) (ix2 p k) = (V c main_arg0 : S50000x256.Idx → Elt Ideal .f32) (ix2 n k) := by
  obtain ⟨-, -, e0, e1, -⟩ := idx_facts t
  unfold iblk1
  show V c main_arg0 (((cfg1.win 1).blk t).view.emb (ix2 p k)) = V c main_arg0 (ix2 n k)
  refine congrArg (V c main_arg0) ?_
  funext a; apply Fin.ext
  match a with
  | ⟨0, _⟩ => show win1_1.index t (0 : Fin 2) * 2000 + 1 * p.val = n.val; rw [e0, hn]; omega
  | ⟨1, _⟩ => show win1_1.index t (1 : Fin 2) * 256 + 1 * k.val = k.val; rw [e1]; omega

/-- Every point reads the whole first weight row … -/
theorem read2 (c : Dev nD) (t : Fin cfg1.N) (z : Fin 1) (k : Fin 256) :
    (iblk1 V c 2 t : Vec Ideal S1x256 .f32) (ix2 z k) = (V c main_v112 : S1x256.Idx → Elt Ideal .f32) (ix2 z k) := by
  obtain ⟨-, -, -, -, e0, e1, -⟩ := idx_facts t
  unfold iblk1
  show V c main_v112 (((cfg1.win 2).blk t).view.emb (ix2 z k)) = V c main_v112 (ix2 z k)
  refine congrArg (V c main_v112) ?_
  funext a; apply Fin.ext
  match a with
  | ⟨0, _⟩ => show win1_2.index t (0 : Fin 2) * 1 + 1 * z.val = z.val; rw [e0]; omega
  | ⟨1, _⟩ => show win1_2.index t (1 : Fin 2) * 256 + 1 * k.val = k.val; rw [e1]; omega

/-- … the whole second weight row … -/
theorem read3 (c : Dev nD) (t : Fin cfg1.N) (z : Fin 1) (k : Fin 256) :
    (iblk1 V c 3 t : Vec Ideal S1x256 .f32) (ix2 z k) = (V c main_v113 : S1x256.Idx → Elt Ideal .f32) (ix2 z k) := by
  obtain ⟨-, -, -, -, -, -, e0, e1, -⟩ := idx_facts t
  unfold iblk1
  show V c main_v113 (((cfg1.win 3).blk t).view.emb (ix2 z k)) = V c main_v113 (ix2 z k)
  refine congrArg (V c main_v113) ?_
  funext a; apply Fin.ext
  match a with
  | ⟨0, _⟩ => show win1_3.index t (0 : Fin 2) * 1 + 1 * z.val = z.val; rw [e0]; omega
  | ⟨1, _⟩ => show win1_3.index t (1 : Fin 2) * 256 + 1 * k.val = k.val; rw [e1]; omega

/-- … and the bias. -/
theorem read4 (c : Dev nD) (t : Fin cfg1.N) (z z' : Fin 1) :
    (iblk1 V c 4 t : Vec Ideal S1x1 .f32) (ix2 z z') = (V c main_v114 : S1x1.Idx → Elt Ideal .f32) (ix2 z z') := by
  obtain ⟨-, -, -, -, -, -, -, -, e0, e1, -⟩ := idx_facts t
  unfold iblk1
  show V c main_v114 (((cfg1.win 4).blk t).view.emb (ix2 z z')) = V c main_v114 (ix2 z z')
  refine congrArg (V c main_v114) ?_
  funext a; apply Fin.ext
  match a with
  | ⟨0, _⟩ => show win1_4.index t (0 : Fin 2) * 1 + 1 * z.val = z.val; rw [e0]; omega
  | ⟨1, _⟩ => show win1_4.index t (1 : Fin 2) * 1 + 1 * z'.val = z'.val; rw [e1]; omega

/-- The stored block at `(p, q)` is the gate function of the arrays at row `n`, when the block's rows are the arrays'
    rows from `n - p` on and the small operands are read whole. -/
theorem gate_point (U X : FVec Ideal S50000x256 .f32) (W0 W1 : FVec Ideal S1x256 .f32) (B : FVec Ideal S1x1 .f32)
    (v0 v2 : FVec Ideal S2000x256 .f32) (v3 v5 : FVec Ideal S1x256 .f32) (v7 : FVec Ideal S1x1 .f32)
    (n : Fin 50000) (p : Fin 2000) (q : Fin 256)
    (h0 : ∀ k : Fin 256, v0 (ix2 p k) = U (ix2 n k)) (h2 : ∀ k : Fin 256, v2 (ix2 p k) = X (ix2 n k))
    (h3 : ∀ k : Fin 256, v3 (ix2 (0 : Fin 1) k) = W0 (ix2 (0 : Fin 1) k))
    (h5 : ∀ k : Fin 256, v5 (ix2 (0 : Fin 1) k) = W1 (ix2 (0 : Fin 1) k))
    (h7 : v7 (ix2 (0 : Fin 1) (0 : Fin 1)) = B (ix2 (0 : Fin 1) (0 : Fin 1))) :
    k1_pay1 (F := Ideal) v0 v2 v3 v5 v7 (ix2 p q) = Cert.Spec.gateSpec U X W0 W1 B (ix2 n q) := by
  have hs : rowScore v0 v2 v3 v5 v7 p = Cert.Spec.score U X W0 W1 B n := by
    unfold rowScore Cert.Spec.score
    rw [h7]
    refine congrArg (· + B (ix2 (0 : Fin 1) (0 : Fin 1))) ?_
    refine congrArg₂ (· + ·) (Finset.sum_congr rfl fun k _ => ?_) (Finset.sum_congr rfl fun k _ => ?_)
    · rw [h0 k, h3 k]
    · rw [h2 k, h5 k]
  rw [pay_apply, Cert.Spec.gateSpec_apply, hs, h0 q, h2 q]

/-! ## What a point writes back, and the array after the last point -/

/-- What point `t` writes back is block `t` of the gate function of the arrays the region found. -/
theorem flushed_eq (c : Dev nD) (t : Fin cfg1.N) :
    (dat1 V c).flushed 5 t
      = ((cfg1.win 5).blk t).view.read (Elt Ideal)
          (Cert.Spec.gateSpec (V c main_v111) (V c main_arg0) (V c main_v112) (V c main_v113) (V c main_v114)) := by
  show (cfg1.win 5).cut (grid1.coords t) ((dat1 V c).after 5 t) = _
  rw [after1_5]
  unfold out1_5
  rw [View.canon_unit_zero zeros2]
  simp only [View.ld_unit_zero (S := S2000x256) zeros2, View.ld_unit_zero (S := S1x256) zeros2,
    View.ld_unit_zero (S := S1x1) zeros2]
  funext j
  obtain ⟨p, q, rfl⟩ : ∃ (p : Fin 2000) (q : Fin 256), j = ix2 p q := ⟨j 0, j 1, eq_ix2 j⟩
  have ht : t.val < 25 := lt_of_lt_of_eq t.isLt N_1
  have hp : p.val < 2000 := p.isLt
  obtain ⟨-, -, -, -, -, -, -, -, -, -, e0, e1⟩ := idx_facts t
  have hemb : ((cfg1.win 5).blk t).view.emb (ix2 p q) = ix2 (⟨t.val * 2000 + p.val, by omega⟩ : Fin 50000) q := by
    funext a; apply Fin.ext
    match a with
    | ⟨0, _⟩ => show win1_5.index t (0 : Fin 2) * 2000 + 1 * p.val = t.val * 2000 + p.val; rw [e0]; omega
    | ⟨1, _⟩ => show win1_5.index t (1 : Fin 2) * 256 + 1 * q.val = q.val; rw [e1]; omega
  rw [View.read_apply, hemb]
  exact gate_point (V c main_v111) (V c main_arg0) (V c main_v112) (V c main_v113) (V c main_v114)
    (iblk1 V c 0 t) (iblk1 V c 1 t) (iblk1 V c 2 t) (iblk1 V c 3 t) (iblk1 V c 4 t) ⟨t.val * 2000 + p.val, by omega⟩ p q
    (fun k => read0 V c t p k _ rfl) (fun k => read1 V c t p k _ rfl) (fun k => read2 V c t 0 k)
    (fun k => read3 V c t 0 k) (read4 V c t 0 0)

/-- An index of the array is in point `t`'s block iff each coordinate is in the block's range on its axis. -/
theorem mem_blk (t : Fin cfg1.N) (i : S50000x256.Idx) :
    i ∈ ((cfg1.win 5).blk t).view.set ↔ ∀ a : Fin 2, win1_5.index t a * S2000x256.size a ≤ (i a).val
      ∧ (i a).val < win1_5.index t a * S2000x256.size a + S2000x256.size a := by
  show i ∈ ((View.whole main_v115).slice (win1_5.rect t)).set ↔ _
  rw [View.set_slice_whole, Rect.mem_set_unit]
  exact Iff.rfl

/-- Row `r` of the array is in the block of point `r / 2000`: the 25 blocks of 2000 rows tile the 50000 rows. -/
theorem cover (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  have hN : grid1.N = 25 := N_1
  have hlt : (i 0).val / 2000 < grid1.N := by rw [hN]; omega
  obtain ⟨-, -, -, -, -, -, -, -, -, -, e0, e1⟩ := idx_facts ⟨(i 0).val / 2000, hlt⟩
  refine ⟨⟨(i 0).val / 2000, hlt⟩, flush1_5 _, ?_⟩
  rw [mem_blk]
  intro a
  match a with
  | ⟨0, _⟩ =>
    show win1_5.index ⟨(i 0).val / 2000, hlt⟩ (0 : Fin 2) * 2000 ≤ (i 0).val
      ∧ (i 0).val < win1_5.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win1_5.index ⟨(i 0).val / 2000, hlt⟩ (1 : Fin 2) * 256 ≤ (i 1).val
      ∧ (i 1).val < win1_5.index ⟨(i 0).val / 2000, hlt⟩ (1 : Fin 2) * 256 + 256
    rw [e1]
    omega

/-- THE ARRAY the region leaves: the gate function of the arrays it found. -/
theorem region1_array (c : Dev nD) :
    (dat1 V c).arrAt 5 cfg1.N
      = Cert.Spec.gateSpec (V c main_v111) (V c main_arg0) (V c main_v112) (V c main_v113) (V c main_v114) :=
  (dat1 V c).arrAt_eq_of_cover 5 _ (fun t _ => flushed_eq V c t) (fun i => cover i)

end Cert.KernelIdeal.GateValue

end
-- ==== Proof.LibHostDot.lean ====
/-
  A plain matrix product on the host, read at an index.  `jnp`'s `A @ B` of an m×k by a k×n matrix lowers to a
  `dot_general` contracting the left operand's axis 1 with the right operand's axis 0; over the extended reals its entry
  (r, c) is the sum over the contracted coordinate i of `A (r, i) · B (i, c)`, whatever the precision and schedule.
  The extents are arbitrary naturals; nothing here depends on a program.  The second form takes the record by name
  together with the equation that spells its fields, for a record a program declares as a definition.
-/
import Idealize.ShloMosaic.Lib.Pipeline.Value
import Idealize.ShloMosaic.Lib.ValueIdx
import Idealize.ShloMosaic.PureOps.Ideal.Laws

noncomputable section

open scoped BigOperators

namespace Cert.LibHostDot

open Idealize.ShloMosaic Idealize.ShloMosaic.ValueIdx

/-- The host's product of an m×k by a k×n matrix, read at (r, c): the sum over the contracted coordinate. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    Host.dotGeneral (⟨[1], [0], [0], [1], [], [], w⟩ : DotDims _ _ _) prec A B (ix2 r c)
      = ∑ i : Fin k, A (ix2 r i) * B (ix2 i c) := by
  simp only [Host.dotGeneral]
  rw [Ideal.dotGeneral_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

/-- The same for a record given by name, with the equation that spells it. -/
theorem dotGeneral_plain_apply' {m k n : ℕ} {φ₁ φ₂ : FTy}
    (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] [])
    (hd : d = ⟨[1], [0], [0], [1], [], [], w⟩)
    (prec : Option ContractPrecision) (A : FVec Ideal ⟨2, ![m, k]⟩ φ₁) (B : FVec Ideal ⟨2, ![k, n]⟩ φ₂)
    (r : Fin m) (c : Fin n) :
    Host.dotGeneral d prec A B (ix2 r c) = ∑ i : Fin k, A (ix2 r i) * B (ix2 i c) := by
  subst hd
  exact dotGeneral_plain_apply w prec A B r c

end Cert.LibHostDot

end
-- ==== Proof.LibHostRows.lean ====
import Idealize.ShloMosaic.Lib.Pipeline.Value
import Idealize.ShloMosaic.Lib.ValueIdx
import Idealize.ShloMosaic.Lib.IdealHost
import Idealize.ShloMosaic.PureOps.Ideal.Laws

/-!
# A vector broadcast down the rows, and a column sum, read at an index

`jnp` broadcasts a vector of `C` entries against an `R × C` matrix in two steps, `[C] → [1, C] → [R, C]`;
read at `(r, c)` the result is the vector's entry `c` (`rowBroadcast_apply`).  A host sum of an `R × C`
matrix over its rows, read at `c` over the extended reals, is the initial value plus the sum over `r` of
the entries `(r, c)` (`colSum_apply`).  The extents are arbitrary naturals.
-/

noncomputable section

open scoped BigOperators

namespace Cert.LibHostRows

open Idealize.ShloMosaic Idealize.ShloMosaic.ValueIdx

/-- A vector broadcast down the rows of a matrix, read at an index: the vector at the column. -/
theorem rowBroadcast_apply {α : Type} {R C : ℕ}
    (h1 : (⟨1, ![C]⟩ : Shape).BroadcastsInDim ⟨2, ![1, C]⟩ ![1])
    (h2 : (⟨2, ![1, C]⟩ : Shape).BroadcastsInDim ⟨2, ![R, C]⟩ ![0, 1])
    (y : (⟨1, ![C]⟩ : Shape).Idx → α) (i : (⟨2, ![R, C]⟩ : Shape).Idx) :
    broadcastInDim ⟨2, ![R, C]⟩ ![0, 1] h2 (broadcastInDim ⟨2, ![1, C]⟩ ![1] h1 y) i = y (ix1 (i 1)) := by
  have hc : (i 1).val < C := (i 1).isLt
  rw [broadcastInDim_apply _ h2 _ i (ix2 ⟨0, Nat.one_pos⟩ (i 1)) (fun a => match a with
      | ⟨0, _⟩ => by show (0 : ℕ) = if (1 : ℕ) = 1 then 0 else (i 0).val; rw [if_pos rfl]
      | ⟨1, _⟩ => by
        show (i 1).val = if C = 1 then 0 else (i 1).val
        split
        · omega
        · rfl),
    broadcastInDim_apply _ h1 y _ (ix1 (i 1)) (fun a => match a with
      | ⟨0, _⟩ => by
        show (i 1).val = if C = 1 then 0 else (i 1).val
        split
        · omega
        · rfl)]

/-- The host's sum of a matrix over its rows, read at a column over the extended reals. -/
theorem colSum_apply {R C : ℕ} {φ : FTy} {u : Shape}
    (hr : (⟨2, ![R, C]⟩ : Shape).ReducesTo [0] ⟨1, ![C]⟩) (hR : (⟨2, ![R, C]⟩ : Shape).Reduces [0] ⟨1, ![C]⟩)
    (hu : 0 < u.numel) (X : FVec Ideal ⟨2, ![R, C]⟩ φ) (c : u.Idx → Ideal φ) (j : (⟨1, ![C]⟩ : Shape).Idx) :
    Host.reduceAdd X c hr hu j = c (Shape.Idx.first hu) + ∑ r : Fin R, X (ix2 r (j 0)) := by
  rw [hostReduceAdd_apply, Ideal.hostReduceAdd_single hr hR]
  refine congrArg (_ + ·) (Finset.sum_congr rfl fun k _ => ?_)
  exact congrArg X (funext fun a => Fin.ext (by match a with | ⟨0, _⟩ => rfl | ⟨1, _⟩ => rfl))

end Cert.LibHostRows

end
-- ==== Proof.GateTail.lean ====
/-
  The gate stage as the reference computes it on whole arrays.  The reference stacks the aggregated features and the node
  features side by side, [u | x] of 512 columns, and takes ONE dot product of length 512 of each row with the weight
  row turned into a column; it adds the bias, takes 1 / (1 + exp (-s)) with the f32 word of 1.0, and mixes tanh u with x.
  A sum over 512 columns is the sum over the first 256 plus the sum over the last 256, and the two halves of the weight
  row are its two slices of 256: so the reference's last twenty operations are the gate function of u, x, the two
  slices and the bias as a 1 by 1 array.
-/
import proofs.«146138_j24567212933530_1_alg».proof.Proof.Gen.ReferenceIdeal.Run
import proofs.«146138_j24567212933530_1_alg».proof.Proof.Gen.KernelIdeal
import proofs.«146138_j24567212933530_1_alg».proof.Proof.Spec
import proofs.«146138_j24567212933530_1_alg».proof.Proof.LibHostDot
import proofs.«146138_j24567212933530_1_alg».proof.Proof.LibHostRows
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.GateTail

open Cert.ReferenceIdeal Cert.ReferenceIdeal.Gen Idealize.ShloMosaic Idealize.ShloMosaic.ValueIdx

/-- The reference's gate weight, a column of 50000: 1 / (1 + exp (-(score))) with the f32 word of 1.0. -/
def refGate (u x : FVec Ideal S50000x256 .f32) (aw : FVec Ideal S1x512 .f32) (ab : FVec Ideal S1 .f32) : FVec Ideal S50000x1 .f32 :=
  Host.divf (broadcastInDim S50000x1 ![] bcast_S_S50000x1 (constant (F := Ideal) S_ .f32 0x3F800000#32))
    (addf (broadcastInDim S50000x1 ![] bcast_S_S50000x1 (constant (F := Ideal) S_ .f32 0x3F800000#32))
      (Host.exp (Host.negf (addf
        (Host.dotGeneral dot_S50000x512_S512x1_S50000x1_1_0_0_1_n_n none
          (concatenate S50000x512 1 [⟨S50000x256, u⟩, ⟨S50000x256, x⟩] concatenates_S50000x256_S50000x256_S50000x512_d1)
          (transpose S512x1 [1, 0] aw transposes_S1x512_S512x1_1_0))
        (broadcastInDim S50000x1 ![0, 1] bcast_S1x1_S50000x1_0_1 (broadcastInDim S1x1 ![1] bcast_S1_S1x1_1 ab))))))

/-- The reference's mix: tanh u weighted by the gate plus x weighted by one minus the gate. -/
def refTail (u x : FVec Ideal S50000x256 .f32) (aw : FVec Ideal S1x512 .f32) (ab : FVec Ideal S1 .f32) : FVec Ideal S50000x256 .f32 :=
  addf (mulf (Host.tanh u) (broadcastInDim S50000x256 ![0, 1] bcast_S50000x1_S50000x256_0_1 (refGate u x aw ab)))
    (mulf x (broadcastInDim S50000x256 ![0, 1] bcast_S50000x1_S50000x256_0_1
      (subf (broadcastInDim S50000x1 ![] bcast_S_S50000x1 (constant (F := Ideal) S_ .f32 0x3F800000#32)) (refGate u x aw ab))))

/-! ## The layout operations read at an index -/

/-- A column of the first half of [u | x] is `u`'s. -/
theorem cat_lo (u x : FVec Ideal S50000x256 .f32) (n : Fin 50000) (i : Fin 512) (k : Fin 256) (hi : i.val = k.val) :
    concatenate S50000x512 1 [⟨S50000x256, u⟩, ⟨S50000x256, x⟩] concatenates_S50000x256_S50000x256_S50000x512_d1 (ix2 n i)
      = u (ix2 n k) :=
  concatenate_apply_piece (t := S50000x512) (1 : Fin 2) [⟨S50000x256, u⟩, ⟨S50000x256, x⟩] concatenates_S50000x256_S50000x256_S50000x512_d1
    (ix2 n i) 0 (by show (0 : ℕ) < 2; omega) S50000x256 u rfl rfl 0 rfl (ix2 n k)
    (fun b hb => match b with
      | ⟨0, _⟩ => rfl
      | ⟨1, _⟩ => absurd rfl hb)
    (by show 0 + k.val = i.val; omega)

/-- A column of the second half of [u | x] is `x`'s. -/
theorem cat_hi (u x : FVec Ideal S50000x256 .f32) (n : Fin 50000) (i : Fin 512) (k : Fin 256) (hi : i.val = 256 + k.val) :
    concatenate S50000x512 1 [⟨S50000x256, u⟩, ⟨S50000x256, x⟩] concatenates_S50000x256_S50000x256_S50000x512_d1 (ix2 n i)
      = x (ix2 n k) :=
  concatenate_apply_piece (t := S50000x512) (1 : Fin 2) [⟨S50000x256, u⟩, ⟨S50000x256, x⟩] concatenates_S50000x256_S50000x256_S50000x512_d1
    (ix2 n i) 1 (by show (1 : ℕ) < 2; omega) S50000x256 x rfl rfl 256 rfl (ix2 n k)
    (fun b hb => match b with
      | ⟨0, _⟩ => rfl
      | ⟨1, _⟩ => absurd rfl hb)
    (by show 256 + k.val = i.val; omega)

/-- The weight row turned into a column. -/
theorem col_apply (aw : FVec Ideal S1x512 .f32) (i : Fin 512) :
    transpose S512x1 [1, 0] aw transposes_S1x512_S512x1_1_0 (ix2 i (0 : Fin 1)) = aw (ix2 (0 : Fin 1) i) :=
  transpose_apply [1, 0] aw transposes_S1x512_S512x1_1_0 (ix2 i (0 : Fin 1)) (ix2 (0 : Fin 1) i)
    (fun b => match b with
      | ⟨0, _⟩ => rfl
      | ⟨1, _⟩ => rfl)

/-- The first 256 entries of the weight row, as the slice at offset 0 … -/
theorem slice_lo (aw : FVec Ideal S1x512 .f32) (i : Fin 512) (k : Fin 256) (hi : i.val = k.val) :
    extractStridedSlice Cert.KernelIdeal.S1x256 ![0, 0] aw Cert.KernelIdeal.Gen.slices_S1x512_S1x256_0_0 (ix2 (0 : Fin 1) k)
      = aw (ix2 (0 : Fin 1) i) :=
  extractStridedSlice_apply ![0, 0] aw Cert.KernelIdeal.Gen.slices_S1x512_S1x256_0_0 (ix2 (0 : Fin 1) k) (ix2 (0 : Fin 1) i)
    (fun a => match a with
      | ⟨0, _⟩ => rfl
      | ⟨1, _⟩ => by show i.val = 0 + k.val; omega)

/-- … and the last 256, as the slice at offset 256. -/
theorem slice_hi (aw : FVec Ideal S1x512 .f32) (i : Fin 512) (k : Fin 256) (hi : i.val = 256 + k.val) :
    extractStridedSlice Cert.KernelIdeal.S1x256 ![0, 256] aw Cert.KernelIdeal.Gen.slices_S1x512_S1x256_0_256 (ix2 (0 : Fin 1) k)
      = aw (ix2 (0 : Fin 1) i) :=
  extractStridedSlice_apply ![0, 256] aw Cert.KernelIdeal.Gen.slices_S1x512_S1x256_0_256 (ix2 (0 : Fin 1) k) (ix2 (0 : Fin 1) i)
    (fun a => match a with
      | ⟨0, _⟩ => rfl
      | ⟨1, _⟩ => by show i.val = 256 + k.val; omega)

/-- The bias as a 1 by 1 array reads the bias. -/
theorem bias_cast (ab : FVec Ideal S1 .f32) :
    shapeCast Cert.KernelIdeal.S1x1 ab Cert.KernelIdeal.Gen.shapeCasts_S1_S1x1 (ix2 (0 : Fin 1) (0 : Fin 1)) = ab (ix1 (0 : Fin 1)) :=
  shapeCast_apply ab Cert.KernelIdeal.Gen.shapeCasts_S1_S1x1 (ix2 (0 : Fin 1) (0 : Fin 1)) (ix1 (0 : Fin 1)) (by
    rw [Shape.rowMajor_val_one, Shape.rowMajor_val_two]; rfl)

/-- The bias broadcast down a column of 50000 reads the bias. -/
theorem bias_col (ab : FVec Ideal S1 .f32) (n : Fin 50000) :
    broadcastInDim S50000x1 ![0, 1] bcast_S1x1_S50000x1_0_1 (broadcastInDim S1x1 ![1] bcast_S1_S1x1_1 ab) (ix2 n (0 : Fin 1))
      = ab (ix1 (0 : Fin 1)) :=
  Cert.LibHostRows.rowBroadcast_apply bcast_S1_S1x1_1 bcast_S1x1_S50000x1_0_1 ab (ix2 n (0 : Fin 1))

/-- The splat of the f32 word of 1.0 down a column reads that word's value. -/
theorem one_col (n : Fin 50000) :
    broadcastInDim S50000x1 ![] bcast_S_S50000x1 (constant (F := Ideal) S_ .f32 0x3F800000#32) (ix2 n (0 : Fin 1))
      = Ideal.ofBits .f32 0x3F800000#32 :=
  broadcastInDim_apply ![] bcast_S_S50000x1 (constant (F := Ideal) S_ .f32 0x3F800000#32) (ix2 n (0 : Fin 1)) ix0
    (fun a => a.elim0)

/-- A column broadcast along the rows of a 50000 by 256 array reads the column at the row. -/
theorem along_rows {α : Type} (g : S50000x1.Idx → α) (n : Fin 50000) (q : Fin 256) :
    broadcastInDim S50000x256 ![0, 1] bcast_S50000x1_S50000x256_0_1 g (ix2 n q) = g (ix2 n (0 : Fin 1)) :=
  broadcastInDim_apply ![0, 1] bcast_S50000x1_S50000x256_0_1 g (ix2 n q) (ix2 n (0 : Fin 1))
    (fun a => match a with
      | ⟨0, _⟩ => rfl
      | ⟨1, _⟩ => rfl)

/-! ## The score, the gate and the mix -/

/-- The reference's dot product of length 512 is the two dot products of length 256 against the two slices. -/
theorem dot_apply (u x : FVec Ideal S50000x256 .f32) (aw : FVec Ideal S1x512 .f32) (n : Fin 50000) :
    Host.dotGeneral dot_S50000x512_S512x1_S50000x1_1_0_0_1_n_n none
        (concatenate S50000x512 1 [⟨S50000x256, u⟩, ⟨S50000x256, x⟩] concatenates_S50000x256_S50000x256_S50000x512_d1)
        (transpose S512x1 [1, 0] aw transposes_S1x512_S512x1_1_0) (ix2 n (0 : Fin 1))
      = (∑ k : Fin 256, u (ix2 n k)
            * extractStridedSlice Cert.KernelIdeal.S1x256 ![0, 0] aw Cert.KernelIdeal.Gen.slices_S1x512_S1x256_0_0 (ix2 (0 : Fin 1) k))
        + (∑ k : Fin 256, x (ix2 n k)
            * extractStridedSlice Cert.KernelIdeal.S1x256 ![0, 256] aw Cert.KernelIdeal.Gen.slices_S1x512_S1x256_0_256 (ix2 (0 : Fin 1) k)) := by
  refine (Cert.LibHostDot.dotGeneral_plain_apply' dot_S50000x512_S512x1_S50000x1_1_0_0_1_n_n
    dot_S50000x512_S512x1_S50000x1_1_0_0_1_n_n_wf rfl none _ _ n (0 : Fin 1)).trans ?_
  refine (Fin.sum_univ_add (a := 256) (b := 256) _).trans ?_
  refine congrArg₂ (· + ·) (Finset.sum_congr rfl fun k _ => ?_) (Finset.sum_congr rfl fun k _ => ?_)
  · rw [cat_lo u x n (Fin.castAdd 256 k) k rfl, col_apply, slice_lo aw (Fin.castAdd 256 k) k rfl]
  · rw [cat_hi u x n (Fin.natAdd 256 k) k rfl, col_apply, slice_hi aw (Fin.natAdd 256 k) k rfl]

/-- The gate's operations on columns, at a row. -/
theorem gate_row (one dot bias : FVec Ideal S50000x1 .f32) (i : S50000x1.Idx) :
    Host.divf one (addf one (Host.exp (Host.negf (addf dot bias)))) i
      = Ideal.div (one i) (one i + Ideal.exp (-(dot i + bias i))) := rfl

/-- The reference's gate weight at row `n` is the logistic of the row's score. -/
theorem refGate_apply (u x : FVec Ideal S50000x256 .f32) (aw : FVec Ideal S1x512 .f32) (ab : FVec Ideal S1 .f32) (n : Fin 50000) :
    refGate u x aw ab (ix2 n (0 : Fin 1))
      = Ideal.logistic (Cert.Spec.score u x
          (extractStridedSlice Cert.KernelIdeal.S1x256 ![0, 0] aw Cert.KernelIdeal.Gen.slices_S1x512_S1x256_0_0)
          (extractStridedSlice Cert.KernelIdeal.S1x256 ![0, 256] aw Cert.KernelIdeal.Gen.slices_S1x512_S1x256_0_256)
          (shapeCast Cert.KernelIdeal.S1x1 ab Cert.KernelIdeal.Gen.shapeCasts_S1_S1x1) n) := by
  unfold refGate
  refine (gate_row _ _ _ _).trans ?_
  rw [one_col, dot_apply, bias_col, ← bias_cast ab]
  exact Cert.Spec.logistic_eq_words _

/-- The mix's operations, at `(n, q)`. -/
theorem mix_row (u x : FVec Ideal S50000x256 .f32) (g o : FVec Ideal S50000x1 .f32) (n : Fin 50000) (q : Fin 256) :
    addf (mulf (Host.tanh u) (broadcastInDim S50000x256 ![0, 1] bcast_S50000x1_S50000x256_0_1 g))
        (mulf x (broadcastInDim S50000x256 ![0, 1] bcast_S50000x1_S50000x256_0_1 (subf o g))) (ix2 n q)
      = Ideal.tanh (u (ix2 n q)) * g (ix2 n (0 : Fin 1))
        + x (ix2 n q) * (o (ix2 n (0 : Fin 1)) - g (ix2 n (0 : Fin 1))) := by
  show Ideal.tanh (u (ix2 n q)) * broadcastInDim S50000x256 ![0, 1] bcast_S50000x1_S50000x256_0_1 g (ix2 n q)
      + x (ix2 n q) * broadcastInDim S50000x256 ![0, 1] bcast_S50000x1_S50000x256_0_1 (subf o g) (ix2 n q) = _
  rw [along_rows, along_rows]
  rfl

/-- The reference's last twenty operations are the gate function of `u`, `x`, the two halves of the weight row and the
    bias as a 1 by 1 array. -/
theorem refTail_eq_gateSpec (u x : FVec Ideal S50000x256 .f32) (aw : FVec Ideal S1x512 .f32) (ab : FVec Ideal S1 .f32) :
    refTail u x aw ab = Cert.Spec.gateSpec u x
      (extractStridedSlice Cert.KernelIdeal.S1x256 ![0, 0] aw Cert.KernelIdeal.Gen.slices_S1x512_S1x256_0_0)
      (extractStridedSlice Cert.KernelIdeal.S1x256 ![0, 256] aw Cert.KernelIdeal.Gen.slices_S1x512_S1x256_0_256)
      (shapeCast Cert.KernelIdeal.S1x1 ab Cert.KernelIdeal.Gen.shapeCasts_S1_S1x1) := by
  funext j
  obtain ⟨n, q, rfl⟩ : ∃ (n : Fin 50000) (q : Fin 256), j = ix2 n q := ⟨j 0, j 1, eq_ix2 j⟩
  rw [Cert.Spec.gateSpec_apply]
  unfold refTail
  refine (mix_row u x _ _ n q).trans ?_
  rw [one_col, refGate_apply]

end Cert.ReferenceIdeal.GateTail

end
-- ==== Proof.LinearBlock.lean ====
/-
  The first dense stage, block by block.  The grid has 25 points; point t reads rows 2000 t … 2000 t + 1999 of the
  feature array together with the whole stacked weight and the whole stacked bias row, and writes the same rows of the
  output.  The value stored at local row p and column q is the sum over k of feature (p, k) times weight (k, q), plus
  the bias at q: a format change of an operand is the identity on the extended reals, the product accumulates into a
  zero splat, and the bias row is broadcast down the rows.  Since row r of the output lies in the block of point
  r / 2000, the 25 blocks cover the array, and the array ends as the fused linear function of the three arrays the
  region finds.
-/
import proofs.«146138_j24567212933530_1_alg».proof.Proof.Gen.KernelIdeal.Frame
import proofs.«146138_j24567212933530_1_alg».proof.Proof.Spec
import proofs.«146138_j24567212933530_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.LinearValue

open Cert.KernelIdeal Cert.KernelIdeal.Gen Idealize.ShloMosaic Idealize.ShloMosaic.TcCoe Idealize.ShloMosaic.ValueIdx Idealize.SL.Sem Idealize.ShloMosaic.Pipeline

/-- The matrix product's dimension record, spelt by its fields. -/
theorem dot_literal : dot_S2000x256_S256x1280_S2000x1280_1_0_0_1_n_n
    = (⟨[1], [0], [0], [1], [], [], dot_S2000x256_S256x1280_S2000x1280_1_0_0_1_n_n_wf⟩ : DotDims S2000x256 S256x1280 S2000x1280) := rfl

theorem payload_apply (v0 : Vec Ideal S2000x256 .f32) (v2 : Vec Ideal S256x1280 .f32) (v6 : Vec Ideal S1x1280 .f32)
    (p : Fin 2000) (q : Fin 1280) :
    k0_pay1 v0 v2 v6 (ix2 p q) = (∑ k : Fin 256, v0 (ix2 p k) * v2 (ix2 k q)) + v6 (ix2 (0 : Fin 1) q) := by
  unfold k0_pay1
  rw [addf_apply, shapeCast_self, shapeCast_self, dot_literal]
  refine congrArg₂ (· + ·) ?_ ?_
  · exact Cert.KernelBody.matmul_plain_zero_apply _ none _ _ p q
  · exact Cert.KernelBody.broadcastTo_row_apply v6 _ p q

/-- One entry of a block of rows: if the block of features holds rows of `x`, the weight and bias blocks are the whole
    stacked weight and bias, then the stored value at local row `p` is the fused linear function at the array row. -/
theorem block_entry (x : FVec Ideal S50000x256 .f32) (w : FVec Ideal S256x1280 .f32) (b : FVec Ideal S1x1280 .f32)
    (v0 : Vec Ideal S2000x256 .f32) (v2 : Vec Ideal S256x1280 .f32) (v6 : Vec Ideal S1x1280 .f32)
    (p : Fin 2000) (q : Fin 1280) (i : S50000x1280.Idx) (hq : (i 1).val = q.val)
    (h0 : ∀ k : Fin 256, v0 (ix2 p k) = x (ix2 (i 0) k)) (h2 : v2 = w) (h6 : v6 = b) :
    k0_pay1 v0 v2 v6 (ix2 p q) = Cert.Spec.linSpec x w b i := by
  rw [payload_apply]
  show _ = (∑ k : Fin 256, x (ix2 (i 0) k) * w (ix2 k (i 1))) + b (ix2 (0 : Fin 1) (i 1))
  have hq' : (i 1 : Fin 1280) = q := Fin.ext hq
  rw [hq', h2, h6]
  exact congrArg (· + _) (Finset.sum_congr rfl fun k _ => by rw [h0 k])

variable (V : (c : Dev nD) → (b : Ref sig .tc) → Buf (Elt Ideal) ((c : Thread nD τ).loc b))

theorem zero_offsets : (![0, 0] : Fin 2 → Nat) = fun _ => 0 := funext fun a => by fin_cases a <;> rfl

/-- The block index maps over the 25 grid points: the feature rows and the output rows move together, one block of
    2000 rows per point; the stacked weight and the stacked bias are read whole. -/
theorem index_facts : ∀ t : Fin cfg0.N, win0_3.index t (0 : Fin 2) = t.val
    ∧ win0_3.index t (1 : Fin 2) = 0
    ∧ win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0 :=
  (by decide +kernel : ∀ t : Fin grid0.N, _)

/-- The feature block at point `t` holds rows `2000 t … 2000 t + 1999` of the feature array. -/
theorem read_rows (c : Dev nD) (t : Fin cfg0.N) (p : Fin 2000) (k : Fin 256) (i : S50000x256.Idx)
    (h0 : (i 0).val = t.val * 2000 + p.val) (h1 : (i 1).val = k.val) :
    (iblk0 V c 0 t : Vec Ideal S2000x256 .f32) (ix2 p k) = (V c main_arg0 : S50000x256.Idx → EReal) i := by
  obtain ⟨e0, e1, e2, e3, e4, e5, e6, e7⟩ := index_facts t
  show V c main_arg0 (((cfg0.win 0).blk t).view.emb (ix2 p k)) = V c main_arg0 i
  refine congrArg (V c main_arg0) (funext fun a => Fin.ext ?_)
  match a with
  | ⟨0, _⟩ => show win0_0.index t (0 : Fin 2) * 2000 + 1 * p.val = (i 0).val; omega
  | ⟨1, _⟩ => show win0_0.index t (1 : Fin 2) * 256 + 1 * k.val = (i 1).val; omega

/-- The weight block at every point is the whole stacked weight. -/
theorem read_weight (c : Dev nD) (t : Fin cfg0.N) :
    (iblk0 V c 1 t : Vec Ideal S256x1280 .f32) = (V c main_v2 : S256x1280.Idx → EReal) := by
  obtain ⟨e0, e1, e2, e3, e4, e5, e6, e7⟩ := index_facts t
  funext y
  show V c main_v2 (((cfg0.win 1).blk t).view.emb y) = V c main_v2 y
  refine congrArg (V c main_v2) (funext fun a => Fin.ext ?_)
  match a with
  | ⟨0, _⟩ => show win0_1.index t (0 : Fin 2) * 256 + 1 * (y 0).val = (y 0).val; omega
  | ⟨1, _⟩ => show win0_1.index t (1 : Fin 2) * 1280 + 1 * (y 1).val = (y 1).val; omega

/-- The bias block at every point is the whole stacked bias row. -/
theorem read_bias (c : Dev nD) (t : Fin cfg0.N) :
    (iblk0 V c 2 t : Vec Ideal S1x1280 .f32) = (V c main_v5 : S1x1280.Idx → EReal) := by
  obtain ⟨e0, e1, e2, e3, e4, e5, e6, e7⟩ := index_facts t
  funext y
  show V c main_v5 (((cfg0.win 2).blk t).view.emb y) = V c main_v5 y
  refine congrArg (V c main_v5) (funext fun a => Fin.ext ?_)
  match a with
  | ⟨0, _⟩ => show win0_2.index t (0 : Fin 2) * 1 + 1 * (y 0).val = (y 0).val; omega
  | ⟨1, _⟩ => show win0_2.index t (1 : Fin 2) * 1280 + 1 * (y 1).val = (y 1).val; omega

/-- What point `t` writes back is block `t` of the fused linear function of the arrays the region finds. -/
theorem flushed_eq (c : Dev nD) (t : Fin cfg0.N) :
    (dat0 (F := Ideal) V c).flushed 3 t
      = ((cfg0.win 3).blk t).view.read (Elt Ideal) (Cert.Spec.linSpec (V c main_arg0) (V c main_v2) (V c main_v5)) := by
  show (cfg0.win 3).cut (grid0.coords t) ((dat0 V c).after 3 t) = _
  rw [after0_3]
  unfold out0_3
  rw [View.canon_unit_zero zero_offsets]
  simp only [View.ld_unit_zero (S := S2000x256) zero_offsets, View.ld_unit_zero (S := S256x1280) zero_offsets, View.ld_unit_zero (S := S1x1280) zero_offsets]
  obtain ⟨e0, e1, e2, e3, e4, e5, e6, e7⟩ := index_facts t
  funext j
  obtain ⟨p, q, rfl⟩ : ∃ (p : Fin 2000) (q : Fin 1280), j = ix2 p q := ⟨j 0, j 1, eq_ix2 j⟩
  show k0_pay1 (iblk0 V c 0 t) (iblk0 V c 1 t) (iblk0 V c 2 t) (ix2 p q)
    = Cert.Spec.linSpec (V c main_arg0) (V c main_v2) (V c main_v5) (((cfg0.win 3).blk t).view.emb (ix2 p q))
  refine block_entry _ _ _ _ _ _ p q _ ?_ (fun k => ?_) (read_weight V c t) (read_bias V c t)
  · show win0_3.index t (1 : Fin 2) * 1280 + 1 * q.val = q.val
    omega
  · refine read_rows V c t p k _ ?_ rfl
    show win0_3.index t (0 : Fin 2) * 2000 + 1 * p.val = t.val * 2000 + p.val
    omega

/-- An index of the output array is in point `t`'s block iff each coordinate is in the block's range on its axis. -/
theorem mem_block (t : Fin cfg0.N) (i : S50000x1280.Idx) :
    i ∈ ((cfg0.win 3).blk t).view.set ↔ ∀ a : Fin 2, win0_3.index t a * S2000x1280.size a ≤ (i a).val
      ∧ (i a).val < win0_3.index t a * S2000x1280.size a + S2000x1280.size a := by
  show i ∈ ((View.whole main_v6).slice (win0_3.rect t)).set ↔ _
  rw [View.set_slice_whole, Rect.mem_set_unit]
  exact Iff.rfl

/-- Row `r` of the output array lies in the block of point `r / 2000`. -/
theorem covered (i : S50000x1280.Idx) :
    ∃ t : Fin cfg0.N, (cfg0.win 3).flush t = true ∧ i ∈ ((cfg0.win 3).blk t).view.set := by
  have hi0 : (i 0).val < 50000 := (i 0).isLt
  have hi1 : (i 1).val < 1280 := (i 1).isLt
  have hN : cfg0.N = 25 := N_0
  have ht : (i 0).val / 2000 < cfg0.N := by rw [hN]; omega
  refine ⟨⟨(i 0).val / 2000, ht⟩, flush0_3 _, ?_⟩
  rw [mem_block]
  obtain ⟨e0, e1, e2, e3, e4, e5, e6, e7⟩ := index_facts ⟨(i 0).val / 2000, ht⟩
  intro a
  match a with
  | ⟨0, _⟩ =>
    show win0_3.index ⟨(i 0).val / 2000, ht⟩ (0 : Fin 2) * 2000 ≤ (i 0).val
      ∧ (i 0).val < win0_3.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_3.index ⟨(i 0).val / 2000, ht⟩ (1 : Fin 2) * 1280 ≤ (i 1).val
      ∧ (i 1).val < win0_3.index ⟨(i 0).val / 2000, ht⟩ (1 : Fin 2) * 1280 + 1280
    rw [e1]
    omega

/-- After its 25 points the region's output array is the fused linear function of the feature array, the stacked
    weight and the stacked bias as the region finds them. -/
theorem region0_array (c : Dev nD) :
    (dat0 (F := Ideal) V c).arrAt 3 cfg0.N = Cert.Spec.linSpec (V c main_arg0) (V c main_v2) (V c main_v5) :=
  (dat0 (F := Ideal) V c).arrAt_eq_of_cover 3 (Cert.Spec.linSpec (V c main_arg0) (V c main_v2) (V c main_v5))
    (fun t _ => flushed_eq V c t) covered

end Cert.KernelIdeal.LinearValue

end
-- ==== Proof.LinearSlices.lean ====
/-
  The five column stretches of the fused linear stage.  The stacked weight has 1280 columns: the root weight's 256,
  then, for each of the four relations r, that relation's 256 columns at 256 (r + 1) … 256 (r + 1) + 255 (the relation
  axis is moved inside the input axis and the two inner axes are flattened row-major, so column 256 r + o of the
  flattened part at row k is entry (r, k, o)).  The stacked bias row is the bias under the root columns and zero
  under the relation columns.  So the stage's entry (n, o) of the root stretch is the sum over k of x(n,k) root(k,o)
  plus bias(o), and its entry (n, o) of relation r's stretch is the sum over k of x(n,k) rel(r,k,o) plus zero; a + 0 = a
  on every extended real, so no finiteness is needed.  These are the five dense products of the other program.
-/
import proofs.«146138_j24567212933530_1_alg».proof.Proof.Gen.KernelIdeal
import proofs.«146138_j24567212933530_1_alg».proof.Proof.Gen.ReferenceIdeal.Run
import proofs.«146138_j24567212933530_1_alg».proof.Proof.Spec
import proofs.«146138_j24567212933530_1_alg».proof.Proof.LibHostDot
import proofs.«146138_j24567212933530_1_alg».proof.Proof.LibHostRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.LinearSlices

open Idealize.ShloMosaic Idealize.ShloMosaic.ValueIdx

/-- The stacked weight: the root weight's 256 columns, then the four relation weights side by side, relation `r`'s
    column `o` at column `256 (r + 1) + o` (the relation axis moved inside the input axis, then flattened). -/
def wcat (root : FVec Ideal Cert.KernelIdeal.S256x256 .f32) (rel : FVec Ideal Cert.KernelIdeal.S4x256x256 .f32) :
    FVec Ideal Cert.KernelIdeal.S256x1280 .f32 :=
  concatenate Cert.KernelIdeal.S256x1280 1
    [⟨Cert.KernelIdeal.S256x256, root⟩,
     ⟨Cert.KernelIdeal.S256x1024,
      shapeCast Cert.KernelIdeal.S256x1024
        (transpose Cert.KernelIdeal.S256x4x256 [1, 0, 2] rel Cert.KernelIdeal.Gen.transposes_S4x256x256_S256x4x256_1_0_2)
        Cert.KernelIdeal.Gen.shapeCasts_S256x4x256_S256x1024⟩]
    Cert.KernelIdeal.Gen.concatenates_S256x256_S256x1024_S256x1280_d1

/-- The stacked bias row: the bias under the root columns, zero under the relation columns. -/
def bcat (bias : FVec Ideal Cert.KernelIdeal.S256 .f32) : FVec Ideal Cert.KernelIdeal.S1x1280 .f32 :=
  shapeCast Cert.KernelIdeal.S1x1280
    (concatenate Cert.KernelIdeal.S1280 0
      [⟨Cert.KernelIdeal.S256, bias⟩,
       ⟨Cert.KernelIdeal.S1024,
        broadcastInDim Cert.KernelIdeal.S1024 ![] Cert.KernelIdeal.Gen.bcast_S_S1024
          (constant (F := Ideal) Cert.KernelIdeal.S_ .f32 0x00000000#32)⟩]
      Cert.KernelIdeal.Gen.concatenates_S256_S1024_S1280_d0)
    Cert.KernelIdeal.Gen.shapeCasts_S1280_S1x1280

/-- A root column of the stacked weight. -/
theorem wcat_root (root : FVec Ideal Cert.KernelIdeal.S256x256 .f32) (rel : FVec Ideal Cert.KernelIdeal.S4x256x256 .f32)
    (k : Fin 256) (o : Fin 256) (q : Fin 1280) (hq : q.val = o.val) :
    wcat root rel (ix2 k q) = root (ix2 k o) := by
  unfold wcat
  refine concatenate_pair_apply_left (1 : Fin 2) root _ _ (ix2 k q) rfl (ix2 k o) (fun b => ?_)
  match b with
  | ⟨0, _⟩ => rfl
  | ⟨1, _⟩ => exact hq.symm

/-- A relation column of the stacked weight: column `256 (r + 1) + o` at row `k` is entry `(r, k, o)` of the relation weights. -/
theorem wcat_rel (root : FVec Ideal Cert.KernelIdeal.S256x256 .f32) (rel : FVec Ideal Cert.KernelIdeal.S4x256x256 .f32)
    (k : Fin 256) (r : Fin 4) (o : Fin 256) (q : Fin 1280) (hq : q.val = 256 * (r.val + 1) + o.val) :
    wcat root rel (ix2 k q) = rel (ix3 r k o) := by
  unfold wcat
  have hm : 256 * r.val + o.val < 1024 := by have := r.isLt; have := o.isLt; omega
  refine (concatenate_pair_apply_right (s₂ := Cert.KernelIdeal.S256x1024) (1 : Fin 2) root _ _ (ix2 k q) rfl rfl (ix2 k ⟨256 * r.val + o.val, hm⟩) (fun b hb => ?_) ?_).trans ?_
  · match b with
    | ⟨0, _⟩ => rfl
    | ⟨1, _⟩ => exact absurd rfl hb
  · show 256 * r.val + o.val + 256 = q.val
    omega
  · refine (shapeCast_apply _ _ (ix2 k ⟨256 * r.val + o.val, hm⟩) (ix3 k r o) ?_).trans ?_
    · rw [Shape.rowMajor_val_three, Shape.rowMajor_val_two]
      show (k.val * 4 + r.val) * 256 + o.val = k.val * 1024 + (256 * r.val + o.val)
      omega
    · refine transpose_apply _ rel _ (ix3 k r o) (ix3 r k o) (fun b => ?_)
      match b with
      | ⟨0, _⟩ => rfl
      | ⟨1, _⟩ => rfl
      | ⟨2, _⟩ => rfl

/-- The stacked bias under a root column is the bias. -/
theorem bcat_root (bias : FVec Ideal Cert.KernelIdeal.S256 .f32) (o : Fin 256) (q : Fin 1280) (hq : q.val = o.val) :
    bcat bias (ix2 (0 : Fin 1) q) = bias (ix1 o) := by
  unfold bcat
  refine (shapeCast_apply _ _ (ix2 (0 : Fin 1) q) (ix1 q) ?_).trans ?_
  · rw [Shape.rowMajor_val_one, Shape.rowMajor_val_two]
    show q.val = 0 * 1280 + q.val
    omega
  · refine concatenate_pair_apply_left (0 : Fin 1) bias _ _ (ix1 q) rfl (ix1 o) (fun b => ?_)
    match b with
    | ⟨0, _⟩ => exact hq.symm

/-- The stacked bias under a relation column is zero. -/
theorem bcat_rel (bias : FVec Ideal Cert.KernelIdeal.S256 .f32) (q : Fin 1280) (hq : 256 ≤ q.val) :
    bcat bias (ix2 (0 : Fin 1) q) = 0 := by
  unfold bcat
  have hm : q.val - 256 < 1024 := by have := q.isLt; omega
  refine (shapeCast_apply _ _ (ix2 (0 : Fin 1) q) (ix1 q) ?_).trans ?_
  · rw [Shape.rowMajor_val_one, Shape.rowMajor_val_two]
    show q.val = 0 * 1280 + q.val
    omega
  · refine (concatenate_pair_apply_right (s₂ := Cert.KernelIdeal.S1024) (0 : Fin 1) bias _ _ (ix1 q) rfl rfl (ix1 ⟨q.val - 256, hm⟩) (fun b hb => ?_) ?_).trans ?_
    · match b with
      | ⟨0, _⟩ => exact absurd rfl hb
    · show q.val - 256 + 256 = q.val
      omega
    · refine (broadcastInDim_apply _ _ _ (ix1 ⟨q.val - 256, hm⟩) ix0 (fun a => a.elim0)).trans ?_
      rw [constant_apply]
      exact Ideal.ofBits_zero_f32

section Entries

variable (x : FVec Ideal Cert.KernelIdeal.S50000x256 .f32) (root : FVec Ideal Cert.KernelIdeal.S256x256 .f32)
  (rel : FVec Ideal Cert.KernelIdeal.S4x256x256 .f32) (bias : FVec Ideal Cert.KernelIdeal.S256 .f32)

/-- The fused linear stage at a root column: the root product plus the bias. -/
theorem lin_root (n : Fin 50000) (o : Fin 256) (q : Fin 1280) (hq : q.val = o.val) :
    Cert.Spec.linSpec x (wcat root rel) (bcat bias) (ix2 n q)
      = (∑ k : Fin 256, x (ix2 n k) * root (ix2 k o)) + bias (ix1 o) := by
  rw [Cert.Spec.linSpec_apply, bcat_root bias o q hq]
  exact congrArg (· + _) (Finset.sum_congr rfl fun k _ => by rw [wcat_root root rel k o q hq])

/-- The fused linear stage at column `256 (r + 1) + o`: the product with relation `r`'s weight, the bias there being
    zero and `a + 0 = a` on every extended real. -/
theorem lin_rel (n : Fin 50000) (r : Fin 4) (o : Fin 256) (q : Fin 1280) (hq : q.val = 256 * (r.val + 1) + o.val) :
    Cert.Spec.linSpec x (wcat root rel) (bcat bias) (ix2 n q) = ∑ k : Fin 256, x (ix2 n k) * rel (ix3 r k o) := by
  rw [Cert.Spec.linSpec_apply, bcat_rel bias q (by omega), add_zero]
  exact Finset.sum_congr rfl fun k _ => by rw [wcat_rel root rel k r o q hq]

/-- The root stretch, columns 0 … 255, is the reference's root product plus its broadcast bias. -/
theorem slice_root :
    extractStridedSlice Cert.KernelIdeal.S50000x256 ![0, 0] (Cert.Spec.linSpec x (wcat root rel) (bcat bias))
        Cert.KernelIdeal.Gen.slices_S50000x1280_S50000x256_0_0
      = addf (Host.dotGeneral Cert.ReferenceIdeal.dot_S50000x256_S256x256_S50000x256_1_0_0_1_n_n none x root)
          (broadcastInDim Cert.ReferenceIdeal.S50000x256 ![0, 1] Cert.ReferenceIdeal.Gen.bcast_S1x256_S50000x256_0_1
            (broadcastInDim Cert.ReferenceIdeal.S1x256 ![1] Cert.ReferenceIdeal.Gen.bcast_S256_S1x256_1 bias)) := by
  funext j
  obtain ⟨n, o, rfl⟩ : ∃ (n : Fin 50000) (o : Fin 256), j = ix2 n o := ⟨j 0, j 1, eq_ix2 j⟩
  have hq : o.val < 1280 := by have := o.isLt; omega
  refine (extractStridedSlice_apply _ _ Cert.KernelIdeal.Gen.slices_S50000x1280_S50000x256_0_0 (ix2 n o)
    (ix2 n ⟨o.val, hq⟩) (fun a => ?_)).trans ?_
  · match a with
    | ⟨0, _⟩ => show n.val = 0 + n.val; omega
    | ⟨1, _⟩ => show o.val = 0 + o.val; omega
  · rw [lin_root x root rel bias n o ⟨o.val, hq⟩ rfl]
    refine Eq.symm ?_
    rw [addf_apply]
    refine congrArg₂ (· + ·) ?_ ?_
    · exact Cert.LibHostDot.dotGeneral_plain_apply' Cert.ReferenceIdeal.dot_S50000x256_S256x256_S50000x256_1_0_0_1_n_n
        Cert.ReferenceIdeal.Gen.dot_S50000x256_S256x256_S50000x256_1_0_0_1_n_n_wf rfl none x root n o
    · exact Cert.LibHostRows.rowBroadcast_apply _ _ bias (ix2 n o)

/-- A relation stretch: columns `co … co + 255` with `co = 256 (ro + 1)` are the reference's product with slice `ro` of
    the relation weights, reshaped to a matrix. -/
theorem slice_rel (ro co : ℕ) (hro : ro < 4) (hco : co = 256 * (ro + 1))
    (hs : Cert.KernelIdeal.S50000x1280.Slices ![0, co] Cert.KernelIdeal.S50000x256)
    (hr : Cert.ReferenceIdeal.S4x256x256.Slices ![ro, 0, 0] Cert.ReferenceIdeal.S1x256x256) :
    extractStridedSlice Cert.KernelIdeal.S50000x256 ![0, co] (Cert.Spec.linSpec x (wcat root rel) (bcat bias)) hs
      = Host.dotGeneral Cert.ReferenceIdeal.dot_S50000x256_S256x256_S50000x256_1_0_0_1_n_n none x
          (shapeCast Cert.ReferenceIdeal.S256x256
            (extractStridedSlice Cert.ReferenceIdeal.S1x256x256 ![ro, 0, 0] rel hr)
            Cert.ReferenceIdeal.Gen.shapeCasts_S1x256x256_S256x256) := by
  funext j
  obtain ⟨n, o, rfl⟩ : ∃ (n : Fin 50000) (o : Fin 256), j = ix2 n o := ⟨j 0, j 1, eq_ix2 j⟩
  have hq : co + o.val < 1280 := by have := o.isLt; omega
  refine (extractStridedSlice_apply _ _ hs (ix2 n o) (ix2 n ⟨co + o.val, hq⟩) (fun a => ?_)).trans ?_
  · match a with
    | ⟨0, _⟩ => show n.val = 0 + n.val; omega
    | ⟨1, _⟩ => rfl
  · rw [lin_rel x root rel bias n ⟨ro, hro⟩ o ⟨co + o.val, hq⟩ (by show co + o.val = 256 * (ro + 1) + o.val; omega)]
    refine Eq.symm ((Cert.LibHostDot.dotGeneral_plain_apply' Cert.ReferenceIdeal.dot_S50000x256_S256x256_S50000x256_1_0_0_1_n_n
      Cert.ReferenceIdeal.Gen.dot_S50000x256_S256x256_S50000x256_1_0_0_1_n_n_wf rfl none x _ n o).trans ?_)
    refine Finset.sum_congr rfl fun k _ => congrArg (x (ix2 n k) * ·) ?_
    refine (shapeCast_apply _ _ (ix2 k o) (ix3 (0 : Fin 1) k o) ?_).trans ?_
    · rw [Shape.rowMajor_val_three, Shape.rowMajor_val_two]
      show (0 * 256 + k.val) * 256 + o.val = k.val * 256 + o.val
      omega
    · refine extractStridedSlice_apply _ rel hr (ix3 (0 : Fin 1) k o) (ix3 ⟨ro, hro⟩ k o) (fun a => ?_)
      match a with
      | ⟨0, _⟩ => show ro = ro + 0; omega
      | ⟨1, _⟩ => show k.val = 0 + k.val; omega
      | ⟨2, _⟩ => show o.val = 0 + o.val; omega

theorem slice_rel0 :
    extractStridedSlice Cert.KernelIdeal.S50000x256 ![0, 256] (Cert.Spec.linSpec x (wcat root rel) (bcat bias))
        Cert.KernelIdeal.Gen.slices_S50000x1280_S50000x256_0_256
      = Host.dotGeneral Cert.ReferenceIdeal.dot_S50000x256_S256x256_S50000x256_1_0_0_1_n_n none x
          (shapeCast Cert.ReferenceIdeal.S256x256
            (extractStridedSlice Cert.ReferenceIdeal.S1x256x256 ![0, 0, 0] rel Cert.ReferenceIdeal.Gen.slices_S4x256x256_S1x256x256_0_0_0)
            Cert.ReferenceIdeal.Gen.shapeCasts_S1x256x256_S256x256) :=
  slice_rel x root rel bias 0 256 (by omega) rfl _ _

theorem slice_rel1 :
    extractStridedSlice Cert.KernelIdeal.S50000x256 ![0, 512] (Cert.Spec.linSpec x (wcat root rel) (bcat bias))
        Cert.KernelIdeal.Gen.slices_S50000x1280_S50000x256_0_512
      = Host.dotGeneral Cert.ReferenceIdeal.dot_S50000x256_S256x256_S50000x256_1_0_0_1_n_n none x
          (shapeCast Cert.ReferenceIdeal.S256x256
            (extractStridedSlice Cert.ReferenceIdeal.S1x256x256 ![1, 0, 0] rel Cert.ReferenceIdeal.Gen.slices_S4x256x256_S1x256x256_1_0_0)
            Cert.ReferenceIdeal.Gen.shapeCasts_S1x256x256_S256x256) :=
  slice_rel x root rel bias 1 512 (by omega) rfl _ _

theorem slice_rel2 :
    extractStridedSlice Cert.KernelIdeal.S50000x256 ![0, 768] (Cert.Spec.linSpec x (wcat root rel) (bcat bias))
        Cert.KernelIdeal.Gen.slices_S50000x1280_S50000x256_0_768
      = Host.dotGeneral Cert.ReferenceIdeal.dot_S50000x256_S256x256_S50000x256_1_0_0_1_n_n none x
          (shapeCast Cert.ReferenceIdeal.S256x256
            (extractStridedSlice Cert.ReferenceIdeal.S1x256x256 ![2, 0, 0] rel Cert.ReferenceIdeal.Gen.slices_S4x256x256_S1x256x256_2_0_0)
            Cert.ReferenceIdeal.Gen.shapeCasts_S1x256x256_S256x256) :=
  slice_rel x root rel bias 2 768 (by omega) rfl _ _

theorem slice_rel3 :
    extractStridedSlice Cert.KernelIdeal.S50000x256 ![0, 1024] (Cert.Spec.linSpec x (wcat root rel) (bcat bias))
        Cert.KernelIdeal.Gen.slices_S50000x1280_S50000x256_0_1024
      = Host.dotGeneral Cert.ReferenceIdeal.dot_S50000x256_S256x256_S50000x256_1_0_0_1_n_n none x
          (shapeCast Cert.ReferenceIdeal.S256x256
            (extractStridedSlice Cert.ReferenceIdeal.S1x256x256 ![3, 0, 0] rel Cert.ReferenceIdeal.Gen.slices_S4x256x256_S1x256x256_3_0_0)
            Cert.ReferenceIdeal.Gen.shapeCasts_S1x256x256_S256x256) :=
  slice_rel x root rel bias 3 1024 (by omega) rfl _ _

end Entries

end Cert.LinearSlices

end
-- ==== Proof.Bridge.lean ====
/-
  The kernel program's result buffer and the reference's result term are one array.

  Both programs aggregate, per relation, the rows of a dense product gathered along the edges and averaged per
  destination node, with the same host operations; they differ in where the dense products come from and in how the gate
  is spelt. The kernel takes the five products as column stretches of ONE fused product against a stacked weight (and a
  stacked bias whose relation part is zero), and scores a node by two dot products of length 256; the reference computes
  five separate products and scores a node by one dot product of length 512 of the two rows side by side. Once the five
  column stretches are rewritten as the reference's products and both gates as the gate function of the specification,
  the two terms are the same operations applied to the same operands: the aggregation is never opened.
-/
import proofs.«146138_j24567212933530_1_alg».proof.Proof.KernelRun
import proofs.«146138_j24567212933530_1_alg».proof.Proof.GateBlock
import proofs.«146138_j24567212933530_1_alg».proof.Proof.GateTail
import proofs.«146138_j24567212933530_1_alg».proof.Proof.LinearBlock
import proofs.«146138_j24567212933530_1_alg».proof.Proof.LinearSlices
import proofs.«146138_j24567212933530_1_alg».proof.Proof.Gen.ReferenceIdeal.Run
import Idealize.ShloMosaic.PureOps.Ideal
import Idealize.ShloMosaic.PureOps.Ideal.Laws

set_option maxRecDepth 16384

noncomputable section

namespace Cert.Bridge

open Idealize.ShloMosaic Idealize.ShloMosaic.TcCoe Idealize.SL.Sem
open Cert.KernelIdeal Cert.KernelIdeal.Gen Cert.KernelIdeal.RunValue

variable (m : (ℓ : Loc nD τ sig) → Buf (Elt Ideal) ℓ) (ρ : Dev nD → PrngReg)

/-- What the first region finds in its weight window: the root weight beside the four relation weights, stacked along the
    columns by the host operations before it. -/
theorem entry_weight (c : Dev nD) : V1 m ρ c main_v2
    = Cert.LinearSlices.wcat (m ((c : Thread nD τ).loc main_arg4)) (m ((c : Thread nD τ).loc main_arg3)) := by
  show StableHlo.after hostOps0 (W0 m ρ c) (Proc.devRef .tc main_v2) = _
  after_results_simp <;> rfl

/-- What the first region finds in its bias window: the bias followed by zeros, as one row. -/
theorem entry_bias (c : Dev nD) : V1 m ρ c main_v5 = Cert.LinearSlices.bcat (m ((c : Thread nD τ).loc main_arg5)) := by
  show StableHlo.after hostOps0 (W0 m ρ c) (Proc.devRef .tc main_v5) = _
  after_results_simp <;> rfl

set_option maxHeartbeats 8000000 in
/-- From memories agreeing on the eight arguments, the reference's result term is what the kernel program's last boundary
    holds at its result buffer. -/
theorem result_eq (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7)) :
    Cert.ReferenceIdeal.Value.res_main_v135 m' c = W12 m ρ c (Proc.devRef .tc main_v115) := by
  -- the reference: its gate is the specification's gate function of its aggregated array
  refine ((show Cert.ReferenceIdeal.Value.res_main_v135 m' c = Cert.ReferenceIdeal.GateTail.refTail _
      (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) from rfl).trans ?_)
  rw [Cert.ReferenceIdeal.GateTail.refTail_eq_gateSpec]
  -- the kernel: its second region's array is the same gate function of what the region finds
  rw [W12_result, Cert.KernelIdeal.GateValue.region1_array]
  -- the arguments agree
  rw [h0, h1, h2, h3, h4, h5, h6, h7]
  -- what the second region finds: walk the nine stretches of host operations back to the first region's exit
  dsimp only [V11, W11]
  after_results_simp
  rw [W2_arg0 m ρ c, W2_arg1 m ρ c, W2_arg2 m ρ c, W2_arg6 m ρ c, W2_arg7 m ρ c]
  -- the first region's array is the fused linear stage of the features, the stacked weight and the stacked bias
  rw [W2_linear m ρ c, Cert.KernelIdeal.LinearValue.region0_array,
    show V1 m ρ c main_arg0 = m ((c : Thread nD τ).loc main_arg0) from W1_arg0 m ρ c, entry_weight, entry_bias]
  -- its five column stretches are the reference's five dense products
  rw [Cert.LinearSlices.slice_root, Cert.LinearSlices.slice_rel0, Cert.LinearSlices.slice_rel1,
    Cert.LinearSlices.slice_rel2, Cert.LinearSlices.slice_rel3]
  rfl

end Cert.Bridge

end
-- ==== Proof.lean ====
/-
  A gated relational graph layer, as a kernel program and as a plain array program, computes one function over the
  extended reals.

  The layer: every node's features (256 numbers) pass through a root weight and four relation weights; for each relation
  the transformed rows are gathered along the edges of that relation and averaged per destination node (a sum divided by
  the count, the count at least one); the root product, a bias and the four averages add up to an aggregated row u(n,.).
  A scalar gate a(n) is the logistic function of a score, the dot product of the row [u(n,.) | x(n,.)] with an attention
  weight of length 512 plus a bias, and the result is tanh(u(n,c)) * a(n) + x(n,c) * (1 - a(n)).

  The kernel program computes the five dense products as ONE product against the five weights stacked along the
  columns, in blocks of 2000 rows, adding a stacked bias whose relation part is zero; it aggregates with the same host
  operations as the reference; and it computes the gate in blocks of 2000 rows, the score as two dot products of length
  256. Three laws join the two programs, and each holds on every extended real, the infinities included, so the
  precondition is never opened:
    * a sum over 512 positions is the sum over the first 256 plus the sum over the last 256;
    * x + 0 = x (the stacked bias under a relation's columns);
    * 1 / (1 + exp(-s)) is the logistic function of s.
  A change of float format is the identity on the extended reals, so the kernel's half-width operands of the fused
  product change nothing.

  The modules: Spec (the two dense stages as functions of whole arrays), LinearBlock and GateBlock (each region's output
  array is its stage applied to what the region finds), LinearSlices (the fused product's five column stretches are
  the reference's five products), GateTail (the reference's last operations are the gate stage), KernelRun (the
  program's run with its result named, and the buffers read at the boundaries between its segments), Bridge (the two
  result terms are one array). The idealization rewrote no operation, so there is nothing to preserve.
-/
import proofs.«146138_j24567212933530_1_alg».proof.Defs
import proofs.«146138_j24567212933530_1_alg».proof.Proof.Gen.Kernel
import proofs.«146138_j24567212933530_1_alg».proof.Proof.Gen.Kernel.Frame
import proofs.«146138_j24567212933530_1_alg».proof.Proof.Gen.KernelIdeal
import proofs.«146138_j24567212933530_1_alg».proof.Proof.Gen.KernelIdeal.Frame
import proofs.«146138_j24567212933530_1_alg».proof.Proof.Gen.ReferenceIdeal
import proofs.«146138_j24567212933530_1_alg».proof.Proof.Gen.ReferenceIdeal.Run
import proofs.«146138_j24567212933530_1_alg».proof.Proof.Gen.Pre_finite_inputs
import proofs.«146138_j24567212933530_1_alg».proof.Proof.KernelRun
import proofs.«146138_j24567212933530_1_alg».proof.Proof.Bridge
import Idealize.ShloMosaic.Adequacy
import Idealize.ShloMosaic.Init

noncomputable section

namespace Cert.Proof

open Idealize.ShloMosaic Idealize.SL.Sem

/-- The kernel program as printed runs and leaves its arguments. -/
theorem frame_kernel : Cert.frame_Kernel := fun m ρ _ => Cert.Kernel.Gen.frame m ρ

/-- The idealized kernel program runs and leaves its arguments. -/
theorem frame_kernelIdeal : Cert.frame_KernelIdeal := fun m ρ _ => Cert.KernelIdeal.Gen.frame m ρ

/-- The idealized reference runs and leaves its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs run, and the reference's result is the array the
    kernel program ends with, element by element. -/
theorem algebraic : Cert.algebraic_KernelIdeal_ReferenceIdeal := by
  intro m ρ m' ρ' _ hagree
  refine ⟨fun c => Cert.KernelIdeal.Gen.W12 m ρ c (Proc.devRef .tc Cert.KernelIdeal.main_v115),
    Cert.KernelIdeal.RunValue.run_result (F := Ideal) m ρ, ?_⟩
  refine (θ_run Cert.ReferenceIdeal.defs _ _).mono (fun _ h c => ⟨(h c).1.trans ?_, (h c).2⟩)
    (Cert.ReferenceIdeal.Value.run (F := Ideal) m' ρ')
  exact Cert.Bridge.result_eq m ρ m' c (hagree c).1 (hagree c).2.1 (hagree c).2.2.1 (hagree c).2.2.2.1
    (hagree c).2.2.2.2.1 (hagree c).2.2.2.2.2.1 (hagree c).2.2.2.2.2.2.1 (hagree c).2.2.2.2.2.2.2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
